-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2 : Shape := ⟨3, ![8, 1024, 2]⟩
abbrev S16384x2 : Shape := ⟨2, ![16384, 2]⟩
abbrev S1 : Shape := ⟨1, ![1]⟩
abbrev S_ : Shape := ⟨0, ![]⟩

class Facts : Prop where
  bcast_S_S8x1024x2 : S_.BroadcastsInDim S8x1024x2 (![] : Fin 0 → Fin S8x1024x2.rank)
  reducesTo_S8x1024x2_S_d0_1_2 : S8x1024x2.ReducesTo [0, 1, 2] S_
  h_S_ : 0 < S_.numel
  bcast_S_S16384x2 : S_.BroadcastsInDim S16384x2 (![] : Fin 0 → Fin S16384x2.rank)
  reducesTo_S16384x2_S_d0_1 : S16384x2.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S8x1024x2 .f32) (main_arg1 : FVec F S8x1024x2 .f32) (main_arg2 : FVec F S16384x2 .f32) (main_arg3 : FVec F S1 .f32) : IVec S_ 1 :=
  let main_v0 : FVec F S8x1024x2 .f32 := Host.absf main_arg0
  let main_cst : FVec F S_ .f32 := constant S_ .f32 0x7F800000#32
  let main_v1 : FVec F S8x1024x2 .f32 := broadcastInDim S8x1024x2 ![] bcast_S_S8x1024x2 main_cst
  let main_v2 : IVec S8x1024x2 1 := cmpf .olt main_v0 main_v1
  let main_c : IVec S_ 1 := constantI S_ 1 1#1
  let main_v3 : IVec S_ 1 := (fun x v => Host.reduce IntOp.andi x v reducesTo_S8x1024x2_S_d0_1_2 h_S_) main_v2 main_c
  let main_v4 : FVec F S8x1024x2 .f32 := Host.absf main_arg1
  let main_cst_0 : FVec F S_ .f32 := constant S_ .f32 0x7F800000#32
  let main_v5 : FVec F S8x1024x2 .f32 := broadcastInDim S8x1024x2 ![] bcast_S_S8x1024x2 main_cst_0
  let main_v6 : IVec S8x1024x2 1 := cmpf .olt main_v4 main_v5
  let main_c_1 : IVec S_ 1 := constantI S_ 1 1#1
  let main_v7 : IVec S_ 1 := (fun x v => Host.reduce IntOp.andi x v reducesTo_S8x1024x2_S_d0_1_2 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S8x1024x2 : Shape := ⟨3, ![8, 1024, 2]⟩
abbrev S16384x2 : Shape := ⟨2, ![16384, 2]⟩
abbrev S1 : Shape := ⟨1, ![1]⟩
abbrev S_ : Shape := ⟨0, ![]⟩
abbrev S16384 : Shape := ⟨1, ![16384]⟩
abbrev S16384x1 : Shape := ⟨2, ![16384, 1]⟩
abbrev S16384x4 : Shape := ⟨2, ![16384, 4]⟩
abbrev S8x1024 : Shape := ⟨2, ![8, 1024]⟩
abbrev S8x1024x1 : Shape := ⟨3, ![8, 1024, 1]⟩
abbrev S8x1x1024 : Shape := ⟨3, ![8, 1, 1024]⟩
abbrev S8x4x1024 : Shape := ⟨3, ![8, 4, 1024]⟩
abbrev S8x3x16384 : Shape := ⟨3, ![8, 3, 16384]⟩
abbrev S2048x4 : Shape := ⟨2, ![2048, 4]⟩
abbrev S1x4x1024 : Shape := ⟨3, ![1, 4, 1024]⟩
abbrev S1x1024x2 : Shape := ⟨3, ![1, 1024, 2]⟩
abbrev S1x3x2048 : Shape := ⟨3, ![1, 3, 2048]⟩
abbrev S4x1024 : Shape := ⟨2, ![4, 1024]⟩
abbrev S1024x2 : Shape := ⟨2, ![1024, 2]⟩
abbrev S2048x1024 : Shape := ⟨2, ![2048, 1024]⟩
abbrev S2048 : Shape := ⟨1, ![2048]⟩
abbrev S2048x1 : Shape := ⟨2, ![2048, 1]⟩
abbrev S2048x2 : Shape := ⟨2, ![2048, 2]⟩
abbrev S2048x3 : Shape := ⟨2, ![2048, 3]⟩
abbrev S3x2048 : Shape := ⟨2, ![3, 2048]⟩
abbrev S8x3x128x128 : Shape := ⟨4, ![8, 3, 128, 128]⟩

abbrev nBuf : Space → Nat
  | .hbm => 62
  | .vmem => 8
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S16384x2, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16384x2, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S_, .f32⟩
  | .hbm, ⟨22, _⟩ => ⟨S16384x1, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384x1, .f32⟩
  | .hbm, ⟨29, _⟩ => ⟨S16384, .f32⟩
  | .hbm, ⟨30, _⟩ => ⟨S16384, .f32⟩
  | .hbm, ⟨31, _⟩ => ⟨S16384, .f32⟩
  | .hbm, ⟨32, _⟩ => ⟨S_, .f32⟩
  | .hbm, ⟨33, _⟩ => ⟨S16384, .f32⟩
  | .hbm, ⟨34, _⟩ => ⟨S16384, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x4, .f32⟩
  | .hbm, ⟨42, _⟩ => ⟨S8x1024x2, .f32⟩
  | .hbm, ⟨43, _⟩ => ⟨S_, .f32⟩
  | .hbm, ⟨44, _⟩ => ⟨S8x1024, .f32⟩
  | .hbm, ⟨45, _⟩ => ⟨S8x1024x1, .f32⟩
  | .hbm, ⟨46, _⟩ => ⟨S8x1024, .f32⟩
  | .hbm, ⟨47, _⟩ => ⟨S8x1024x1, .f32⟩
  | .hbm, ⟨48, _⟩ => ⟨S8x1024, .f32⟩
  | .hbm, ⟨49, _⟩ => ⟨S_, .f32⟩
  | .hbm, ⟨50, _⟩ => ⟨S8x1024, .f32⟩
  | .hbm, ⟨51, _⟩ => ⟨S_, .f32⟩
  | .hbm, ⟨52, _⟩ => ⟨S8x1024, .f32⟩
  | .hbm, ⟨53, _⟩ => ⟨S8x1024, .f32⟩
  | .hbm, ⟨54, _⟩ => ⟨S8x1x1024, .f32⟩
  | .hbm, ⟨55, _⟩ => ⟨S8x1x1024, .f32⟩
  | .hbm, ⟨56, _⟩ => ⟨S8x1x1024, .f32⟩
  | .hbm, ⟨57, _⟩ => ⟨S8x1x1024, .f32⟩
  | .hbm, ⟨58, _⟩ => ⟨S8x4x1024, .f32⟩
  | .hbm, ⟨59, _⟩ => ⟨S8x1024x2, .bf16⟩
  | .hbm, ⟨60, _⟩ => ⟨S8x3x16384, .f32⟩
  | .hbm, ⟨61, _⟩ => ⟨S8x3x128x128, .f32⟩
  | .local _ .vmem, ⟨0, _⟩ => ⟨S2048x4, .f32⟩
  | .local _ .vmem, ⟨1, _⟩ => ⟨S2048x4, .f32⟩
  | .local _ .vmem, ⟨2, _⟩ => ⟨S1x4x1024, .f32⟩
  | .local _ .vmem, ⟨3, _⟩ => ⟨S1x4x1024, .f32⟩
  | .local _ .vmem, ⟨4, _⟩ => ⟨S1x1024x2, .bf16⟩
  | .local _ .vmem, ⟨5, _⟩ => ⟨S1x1024x2, .bf16⟩
  | .local _ .vmem, ⟨6, _⟩ => ⟨S1x3x2048, .f32⟩
  | .local _ .vmem, ⟨7, _⟩ => ⟨S1x3x2048, .f32⟩
  | _, _ => ⟨S8x1024x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_cst_2 : Ref sig .tc := ⟨.hbm, 15, rfl⟩
abbrev main_v5 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S1_S_ : S1.ShapeCasts S_
  reducesTo_S16384x2_S16384_d1 : S16384x2.ReducesTo [1] S16384
  h_S_ : 0 < S_.numel
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  slices_S16384x2_S16384x1_0_1 : S16384x2.Slices ![0, 1] S16384x1
  bcast_S16384_S16384x1_0 : S16384.BroadcastsInDim S16384x1 (![0] : Fin 1 → Fin S16384x1.rank)
  concatenates_S16384x1_S16384x1_S16384x1_S16384x1_S16384x4_d1 : Shape.Concatenates [S16384x1, S16384x1, S16384x1, S16384x1] S16384x4 1
  reducesTo_S8x1024x2_S8x1024_d2 : S8x1024x2.ReducesTo [2] S8x1024
  slices_S8x1024x2_S8x1024x1_0_0_0 : S8x1024x2.Slices ![0, 0, 0] S8x1024x1
  shapeCasts_S8x1024x1_S8x1024 : S8x1024x1.ShapeCasts S8x1024
  slices_S8x1024x2_S8x1024x1_0_0_1 : S8x1024x2.Slices ![0, 0, 1] S8x1024x1
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  concatenates_S8x1x1024_S8x1x1024_S8x1x1024_S8x1x1024_S8x4x1024_d1 : Shape.Concatenates [S8x1x1024, S8x1x1024, S8x1x1024, S8x1x1024] S8x4x1024 1
  bitsLt_bf16_f32 : FTy.bits .bf16 < FTy.bits .f32
  inb_S2048x4_S2048x4_0_0 : ∀ a, (![0, 0] : Fin 2 → Nat) a + S2048x4.size a ≤ S2048x4.size a
  h_S2048x4 : 0 < S2048x4.numel
  shapeCasts_S2048x4_S2048x4 : S2048x4.ShapeCasts S2048x4
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  reduces_S2048x1024_S2048 : S2048x1024.Reduces [1] S2048
  shapeCasts_S2048_S2048x1 : S2048.ShapeCasts S2048x1
  broadcasts_S2048x1_S2048x2 : S2048x1.Broadcasts S2048x2
  concatenates_S2048x1_S2048x2_S2048x3_d1 : Shape.Concatenates [S2048x1, S2048x2] S2048x3 1
  transposes_S2048x3_p1_0_S3x2048 : S2048x3.Transposes [1, 0] S3x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  shapeCasts_S3x2048_S1x3x2048 : S3x2048.ShapeCasts S1x3x2048
  shapeCasts_S8x3x16384_S8x3x128x128 : S8x3x16384.ShapeCasts S8x3x128x128
  dot_S2048x4_S4x1024_S2048x1024_1_0_0_1_n_n_wf : DotDims.WF S2048x4 S4x1024 S2048x1024 [1] [0] [0] [1] [] []
  dot_S2048x1024_S1024x2_S2048x2_1_0_0_1_n_n_wf : DotDims.WF S2048x1024 S1024x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S16384x4.size a
  hwx0_0 : ∀ i : grid0.Coords, EltTy.bits .f32 = 32 ∨ (Rect.block (s := S16384x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1024.size a ≤ S8x4x1024.size a
  hwx0_1 : ∀ i : grid0.Coords, EltTy.bits .f32 = 32 ∨ (Rect.block (s := S8x4x1024) S1x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2.size a ≤ S8x1024x2.size a
  hwx0_2 : ∀ i : grid0.Coords, EltTy.bits .bf16 = 32 ∨ (Rect.block (s := S8x1024x2) S1x1024x2.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x2048.size a ≤ S8x3x16384.size a
  hwx0_3 : ∀ i : grid0.Coords, EltTy.bits .f32 = 32 ∨ (Rect.block (s := S8x3x16384) S1x3x2048.size (cc0_transform_3 i) (hinb0_3 i)).WholeWords (EltTy.packing .f32)

variable [Facts₀]

def dot_S2048x4_S4x1024_S2048x1024_1_0_0_1_n_n : DotDims S2048x4 S4x1024 S2048x1024 where
  lhsContracting := [1]
  rhsContracting := [0]
  lhsNonContracting := [0]
  rhsNonContracting := [1]
  lhsBatch := []
  rhsBatch := []
  wf := dot_S2048x4_S4x1024_S2048x1024_1_0_0_1_n_n_wf
def dot_S2048x1024_S1024x2_S2048x2_1_0_0_1_n_n : DotDims S2048x1024 S1024x2 S2048x2 where
  lhsContracting := [1]
  rhsContracting := [0]
  lhsNonContracting := [0]
  rhsNonContracting := [1]
  lhsBatch := []
  rhsBatch := []
  wf := dot_S2048x1024_S1024x2_S2048x2_1_0_0_1_n_n_wf

abbrev win0_0 : Pipeline.Window sig grid0 :=
  Pipeline.Window.ofSpec (Memref.whole main_v26) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S1x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1x1024x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v43) S1x3x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x2 : Shape := ⟨3, ![8, 1024, 2]⟩
abbrev S16384x2 : Shape := ⟨2, ![16384, 2]⟩
abbrev S1 : Shape := ⟨1, ![1]⟩
abbrev S_ : Shape := ⟨0, ![]⟩
abbrev S1x16384x1x2 : Shape := ⟨4, ![1, 16384, 1, 2]⟩
abbrev S8x1x1024x2 : Shape := ⟨4, ![8, 1, 1024, 2]⟩
abbrev S8x16384x1024x2 : Shape := ⟨4, ![8, 16384, 1024, 2]⟩
abbrev S8x16384x1024 : Shape := ⟨3, ![8, 16384, 1024]⟩
abbrev S8x1024x1 : Shape := ⟨3, ![8, 1024, 1]⟩
abbrev S8x1024x3 : Shape := ⟨3, ![8, 1024, 3]⟩
abbrev S8x16384x3 : Shape := ⟨3, ![8, 16384, 3]⟩
abbrev S8x16384x1 : Shape := ⟨3, ![8, 16384, 1]⟩
abbrev S8x16384x2 : Shape := ⟨3, ![8, 16384, 2]⟩
abbrev S8x128x128x3 : Shape := ⟨4, ![8, 128, 128, 3]⟩
abbrev S8x3x128x128 : Shape := ⟨4, ![8, 3, 128, 128]⟩

abbrev nBuf : Space → Nat
  | .hbm => 38
  | .vmem => 0
  | .smem => 0
  | _ => 0

abbrev bufTy : (tb : Table) → Fin (tcTables nBuf tb) → BufTy
  | .hbm, ⟨0, _⟩ => ⟨S8x1024x2, .f32⟩
  | .hbm, ⟨1, _⟩ => ⟨S8x1024x2, .f32⟩
  | .hbm, ⟨2, _⟩ => ⟨S16384x2, .f32⟩
  | .hbm, ⟨3, _⟩ => ⟨S1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x16384x1x2, .f32⟩
  | .hbm, ⟨13, _⟩ => ⟨S8x1x1024x2, .f32⟩
  | .hbm, ⟨14, _⟩ => ⟨S8x16384x1024x2, .f32⟩
  | .hbm, ⟨15, _⟩ => ⟨S8x16384x1024x2, .f32⟩
  | .hbm, ⟨16, _⟩ => ⟨S8x16384x1024x2, .f32⟩
  | .hbm, ⟨17, _⟩ => ⟨S8x16384x1024x2, .f32⟩
  | .hbm, ⟨18, _⟩ => ⟨S_, .f32⟩
  | .hbm, ⟨19, _⟩ => ⟨S8x16384x1024, .f32⟩
  | .hbm, ⟨20, _⟩ => ⟨S8x16384x1024, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x16384x1024, .f32⟩
  | .hbm, ⟨25, _⟩ => ⟨S8x16384x1024, .f32⟩
  | .hbm, ⟨26, _⟩ => ⟨S8x16384x1024, .f32⟩
  | .hbm, ⟨27, _⟩ => ⟨S_, .f32⟩
  | .hbm, ⟨28, _⟩ => ⟨S8x1024x1, .f32⟩
  | .hbm, ⟨29, _⟩ => ⟨S8x1024x3, .f32⟩
  | .hbm, ⟨30, _⟩ => ⟨S8x16384x3, .f32⟩
  | .hbm, ⟨31, _⟩ => ⟨S8x16384x1, .f32⟩
  | .hbm, ⟨32, _⟩ => ⟨S8x16384x2, .f32⟩
  | .hbm, ⟨33, _⟩ => ⟨S8x16384x2, .f32⟩
  | .hbm, ⟨34, _⟩ => ⟨S8x16384x2, .f32⟩
  | .hbm, ⟨35, _⟩ => ⟨S8x16384x3, .f32⟩
  | .hbm, ⟨36, _⟩ => ⟨S8x128x128x3, .f32⟩
  | .hbm, ⟨37, _⟩ => ⟨S8x3x128x128, .f32⟩
  | _, _ => ⟨S8x1024x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  shapeCasts_S1_S_ : S1.ShapeCasts S_
  bcast_S16384x2_S1x16384x1x2_1_3 : S16384x2.BroadcastsInDim S1x16384x1x2 (![1, 3] : Fin 2 → Fin S1x16384x1x2.rank)
  bcast_S8x1024x2_S8x1x1024x2_0_2_3 : S8x1024x2.BroadcastsInDim S8x1x1024x2 (![0, 2, 3] : Fin 3 → Fin S8x1x1024x2.rank)
  bcast_S1x16384x1x2_S8x16384x1024x2_0_1_2_3 : S1x16384x1x2.BroadcastsInDim S8x16384x1024x2 (![0, 1, 2, 3] : Fin 4 → Fin S8x16384x1024x2.rank)
  bcast_S8x1x1024x2_S8x16384x1024x2_0_1_2_3 : S8x1x1024x2.BroadcastsInDim S8x16384x1024x2 (![0, 1, 2, 3] : Fin 4 → Fin S8x16384x1024x2.rank)
  reducesTo_S8x16384x1024x2_S8x16384x1024_d3 : S8x16384x1024x2.ReducesTo [3] S8x16384x1024
  h_S_ : 0 < S_.numel
  bcast_S_S8x16384x1024 : S_.BroadcastsInDim S8x16384x1024 (![] : Fin 0 → Fin S8x16384x1024.rank)
  bcast_S_S8x1024x1 : S_.BroadcastsInDim S8x1024x1 (![] : Fin 0 → Fin S8x1024x1.rank)
  concatenates_S8x1024x1_S8x1024x2_S8x1024x3_d2 : Shape.Concatenates [S8x1024x1, S8x1024x2] S8x1024x3 2
  slices_S8x16384x3_S8x16384x1_0_0_0 : S8x16384x3.Slices ![0, 0, 0] S8x16384x1
  slices_S8x16384x3_S8x16384x2_0_0_1 : S8x16384x3.Slices ![0, 0, 1] S8x16384x2
  bcast_S8x16384x1_S8x16384x2_0_1_2 : S8x16384x1.BroadcastsInDim S8x16384x2 (![0, 1, 2] : Fin 3 → Fin S8x16384x2.rank)
  concatenates_S8x16384x1_S8x16384x2_S8x16384x3_d2 : Shape.Concatenates [S8x16384x1, S8x16384x2] S8x16384x3 2
  shapeCasts_S8x16384x3_S8x128x128x3 : S8x16384x3.ShapeCasts S8x128x128x3
  transposes_S8x128x128x3_S8x3x128x128_0_3_1_2 : S8x128x128x3.Transposes [0, 3, 1, 2] S8x3x128x128
  dot_S8x16384x1024_S8x1024x3_S8x16384x3_2_1_1_2_0_0_wf : DotDims.WF S8x16384x1024 S8x1024x3 S8x16384x3 [2] [1] [1] [2] [0] [0]

variable [Facts₀]

def dot_S8x16384x1024_S8x1024x3_S8x16384x3_2_1_1_2_0_0 : DotDims S8x16384x1024 S8x1024x3 S8x16384x3 where
  lhsContracting := [2]
  rhsContracting := [1]
  lhsNonContracting := [1]
  rhsNonContracting := [2]
  lhsBatch := [0]
  rhsBatch := [0]
  wf := dot_S8x16384x1024_S8x1024x3_S8x16384x3_2_1_1_2_0_0_wf

class Facts : Prop extends Facts₀ where

variable [Facts]
-- ==== Proof.KFrame.lean ====
/-
  The frame run of the kernel program as printed, at the word level: every weakly fair execution of @main terminates, nothing faults, and the argument
  arrays end as they began — together with what the run leaves in the result arrays.

  @main is three stretches of host lines (the scalar prologue; the clamp, a function called from it; the lines that
  build the two augmented operand arrays and convert the features), ONE region over an 8 × 8 grid — grid point
  `(b, g)` takes block `g` of 2048 rows of the augmented image array, slab `b` of the augmented context array and slab
  `b` of the features, and writes block `(b, 0, g)` of the [8, 3, 16384] result — and one host reshape after it.

  The body loads its three input blocks whole, computes ONE value from them (the skeleton's payload), loads the output
  block (a value nothing reads) and stores the payload over the whole output block.  So after the body the output's
  staging buffer holds that payload of the three input blocks whatever it held before, and every input buffer is as
  it was; an input window whose block index does not move between two points is not fetched again and still holds
  its block.  The region's arrays on entry are what the host lines before it computed (`entryVal`); the arguments are
  written by no host line, before or after, and staged by no window, so they end as launched.
-/
import proofs.«117513_j37263136260428_2_alg».proof.Proof.Gen.Kernel.Launch
import proofs.«117513_j37263136260428_2_alg».proof.Proof.Gen.Kernel.Skeleton
import proofs.«117513_j37263136260428_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents run through the three stretches of
    host lines before it. -/
abbrev entryVal (c : Dev nD) : Valuation τ sig (Elt F) :=
  StableHlo.after (List.flatten [hostOps0, hostOps0_1, hostOps0_2]) (fun b => m (c, b))
/-- The same read at a reference. -/
abbrev entryAt (c : Dev nD) (b : Ref sig .tc) : Buf (Elt F) ((c : Thread nD τ).loc b) := entryVal m c (Proc.devRef .tc b)

/-- No host line allocates. -/
theorem pre0_fresh : (hostOps0 : List (HloOp τ sig (Elt F))).Forall fun op => op.fresh = ∅ := by
  simp only [List.Forall]; repeat' constructor
theorem pre1_fresh : (hostOps0_1 : List (HloOp τ sig (Elt F))).Forall fun op => op.fresh = ∅ := by
  simp only [List.Forall]; repeat' constructor
theorem pre2_fresh : (hostOps0_2 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is its host lines, the region, the reshape: it reduces to the region continued by the reshape, entered at
    `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨pre0_fresh, pre1_fresh, pre2_fresh⟩) main_chain

/-- The reshape touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes its own result, which is no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer no host line before the region writes is found as launched. -/
theorem entry_unwritten (c : Dev nD) (b : Ref sig .tc)
    (h : ∀ op ∈ List.flatten [(hostOps0 : List (HloOp τ sig (Elt F))), hostOps0_1, hostOps0_2], Proc.devRef .tc b ∉ op.writes) :
    entryAt m c b = m ((c : Thread nD τ).loc b) :=
  StableHlo.after_of_forall_not_mem (b := Proc.devRef .tc b) _ _ h

/-! ## The arguments are written by no host line -/

/-- The simp set that reads each host line's written buffer off its text. -/
theorem arg0_entry (c : Dev nD) : entryAt m c main_arg0 = m ((c : Thread nD τ).loc main_arg0) :=
  entry_unwritten m c main_arg0 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg1_entry (c : Dev nD) : entryAt m c main_arg1 = m ((c : Thread nD τ).loc main_arg1) :=
  entry_unwritten m c main_arg1 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg2_entry (c : Dev nD) : entryAt m c main_arg2 = m ((c : Thread nD τ).loc main_arg2) :=
  entry_unwritten m c main_arg2 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg3_entry (c : Dev nD) : entryAt m c main_arg3 = m ((c : Thread nD τ).loc main_arg3) :=
  entry_unwritten m c main_arg3 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))

/-- After the reshape too: it writes its own result, and no window stages an argument. -/
theorem arg_exit (dats : (p : Fin _) → (c : Dev nD) → Dat τ (Elt F) Unit ℕ (UR sig nD τ) ℕ (cfgs p) c) (c : Dev nD)
    (b : Ref sig .tc) (hb : ∀ w, Pipeline.arrRef spec0 w ≠ b) (hne : Proc.devRef (τ := τ) (sig := sig) .tc b ≠ Proc.devRef (τ := τ) (sig := sig) .tc main_v44) :
    Pipeline.afterTail₀ cfgs dats 0 (entryVal m) [hostOps1] c b = entryAt m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact hne)),
    Pipeline.withArrays_of_ne _ c (entryVal m c) _ b hb]

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's staging buffer holds its block at every point, fetched there or not: between two points where it
    is not fetched the block index has not moved, and the body leaves the buffer as it found it. -/
theorem found0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The rectangles the body loads and stores through: each a whole staging buffer. -/
abbrev rect0 : Rect S2048x4 := Rect.unit (s := S2048x4) ![0, 0] S2048x4.size inb_S2048x4_S2048x4_0_0
abbrev rect1 : Rect S1x4x1024 := Rect.unit (s := S1x4x1024) ![0, 0, 0] S1x4x1024.size inb_S1x4x1024_S1x4x1024_0_0_0
abbrev rect2 : Rect S1x1024x2 := Rect.unit (s := S1x1024x2) ![0, 0, 0] S1x1024x2.size inb_S1x1024x2_S1x1024x2_0_0_0
abbrev rect3 : Rect S1x3x2048 := Rect.unit (s := S1x3x2048) ![0, 0, 0] S1x3x2048.size inb_S1x3x2048_S1x3x2048_0_0_0

/-- What the body leaves in the output's staging buffer, from the three input blocks: its one store, of the payload. -/
def stored (x0 : Vec F S2048x4 .f32) (x1 : Vec F S1x4x1024 .f32) (x2 : Vec F S1x1024x2 .bf16) : Vec F S1x3x2048 .f32 :=
  View.canon [⟨rect3, k0_pay1 (View.ld x0 rect0) (View.ld x1 rect1) (View.ld x2 rect2)⟩]

/-- The one store covers the buffer. -/
theorem stored_covers (p0 : Vec F S1x3x2048 .f32) (y : S1x3x2048.Idx) :
    ∃ pc ∈ ([⟨rect3, p0⟩] : List (View.Piece (Elt F) S1x3x2048 .f32)), y ∈ pc.1.set :=
  View.cover_of_tiled [⟨rect3, p0⟩] S1x3x2048.size (by rfl) y

set_option maxHeartbeats 1000000 in
/-- The body on whole staging buffers — the inputs' at contents `x0 x1 x2`, the output's at anything — runs to its end
    holding the inputs' as they were and the output's at `stored x0 x1 x2`. -/
theorem body_triple (c : Dev nD) (E : Set ℕ) (i : grid0.Coords)
    (arg2 : Memref sig .tc .vmem S2048x4 .f32) (harg2 : arg2.IsWhole) (arg3 : Memref sig .tc .vmem S1x4x1024 .f32) (harg3 : arg3.IsWhole)
    (arg4 : Memref sig .tc .vmem S1x1024x2 .bf16) (harg4 : arg4.IsWhole) (arg5 : Memref sig .tc .vmem S1x3x2048 .f32) (harg5 : arg5.IsWhole)
    (x0 : Vec F S2048x4 .f32) (x1 : Vec F S1x4x1024 .f32) (x2 : Vec F S1x1024x2 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The proof data -/

/-- The region's proof data on core `c`: the arrays as found on entry; after the body at point `t` each input's buffer
    at its block and the output's at `stored` of the three blocks; the invariant untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_entry (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

theorem before0 (c : Dev nD) (t : Fin cfg0.N) (d) : (dats m 0 c).before 0 t d = blockAt m c 0 t :=
  found0 m (dats m 0 c) (arrays_entry m c 0) (after0 m c) t d
theorem before1 (c : Dev nD) (t : Fin cfg0.N) (d) : (dats m 0 c).before 1 t d = blockAt m c 1 t :=
  found1 m (dats m 0 c) (arrays_entry m c 1) (after1 m c) t d
theorem before2 (c : Dev nD) (t : Fin cfg0.N) (d) : (dats m 0 c).before 2 t d = blockAt m c 2 t :=
  found2 m (dats m 0 c) (arrays_entry m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and every final state has each array of the region at what the
    proof data's blocks cover it with, and every other unscoped buffer as the reshape after the region leaves it. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_entry m) (hΦ := fun _ _ => rfl)

/-- An argument array ends as launched: no window stages it and no host line writes it. -/
theorem arg_kept (c : Dev nD) (b : Ref sig .tc) (hb : ∀ w, Pipeline.arrRef spec0 w ≠ b) (hne : Proc.devRef (τ := τ) (sig := sig) .tc b ≠ Proc.devRef (τ := τ) (sig := sig) .tc main_v44)
    (hin : b ∈ Pipeline.restRefs sig spec0) (he : entryAt m c b = m ((c : Thread nD τ).loc b))
    (r) (h : Pipeline.FramePost cfgs (dats m) 0 (Pipeline.afterTail₀ cfgs (dats m) 0 (entryVal m) [hostOps1]) r) :
    r.2.mem ((c.tc : Thread nD τ).loc b) = m ((c.tc : Thread nD τ).loc b) :=
  (((h c).2 b hin).trans (arg_exit m (dats m) c b hb hne)).trans he

/-- THE FRAME: the run with everything but the arguments forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨arg_kept m c main_arg0 (by decide) (StableHlo.devRef_ne_of_ne (by decide)) (Pipeline.mem_restRefs_of main_arg0 (by decide) (by decide)) (arg0_entry m c) r h,
     arg_kept m c main_arg1 (by decide) (StableHlo.devRef_ne_of_ne (by decide)) (Pipeline.mem_restRefs_of main_arg1 (by decide) (by decide)) (arg1_entry m c) r h,
     arg_kept m c main_arg2 (by decide) (StableHlo.devRef_ne_of_ne (by decide)) (Pipeline.mem_restRefs_of main_arg2 (by decide) (by decide)) (arg2_entry m c) r h,
     arg_kept m c main_arg3 (by decide) (StableHlo.devRef_ne_of_ne (by decide)) (Pipeline.mem_restRefs_of main_arg3 (by decide) (by decide)) (arg3_entry m c) r h⟩)
    (run_main m ρ)

end Cert.Kernel.Hand

end
-- ==== Proof.KIFrame.lean ====
/-
  The frame run of the idealized kernel program: every weakly fair execution of @main terminates, nothing faults, and the argument
  arrays end as they began — together with what the run leaves in the result arrays.

  @main is three stretches of host lines (the scalar prologue; the clamp, a function called from it; the lines that
  build the two augmented operand arrays and convert the features), ONE region over an 8 × 8 grid — grid point
  `(b, g)` takes block `g` of 2048 rows of the augmented image array, slab `b` of the augmented context array and slab
  `b` of the features, and writes block `(b, 0, g)` of the [8, 3, 16384] result — and one host reshape after it.

  The body loads its three input blocks whole, computes ONE value from them (the skeleton's payload), loads the output
  block (a value nothing reads) and stores the payload over the whole output block.  So after the body the output's
  staging buffer holds that payload of the three input blocks whatever it held before, and every input buffer is as
  it was; an input window whose block index does not move between two points is not fetched again and still holds
  its block.  The region's arrays on entry are what the host lines before it computed (`entryVal`); the arguments are
  written by no host line, before or after, and staged by no window, so they end as launched.
-/
import proofs.«117513_j37263136260428_2_alg».proof.Proof.Gen.KernelIdeal.Launch
import proofs.«117513_j37263136260428_2_alg».proof.Proof.Gen.KernelIdeal.Skeleton
import proofs.«117513_j37263136260428_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents run through the three stretches of
    host lines before it. -/
abbrev entryVal (c : Dev nD) : Valuation τ sig (Elt F) :=
  StableHlo.after (List.flatten [hostOps0, hostOps0_1, hostOps0_2]) (fun b => m (c, b))
/-- The same read at a reference. -/
abbrev entryAt (c : Dev nD) (b : Ref sig .tc) : Buf (Elt F) ((c : Thread nD τ).loc b) := entryVal m c (Proc.devRef .tc b)

/-- No host line allocates. -/
theorem pre0_fresh : (hostOps0 : List (HloOp τ sig (Elt F))).Forall fun op => op.fresh = ∅ := by
  simp only [List.Forall]; repeat' constructor
theorem pre1_fresh : (hostOps0_1 : List (HloOp τ sig (Elt F))).Forall fun op => op.fresh = ∅ := by
  simp only [List.Forall]; repeat' constructor
theorem pre2_fresh : (hostOps0_2 : List (HloOp τ sig (Elt F))).Forall fun op => op.fresh = ∅ := by
  simp only [List.Forall]; repeat' constructor
theorem post_fresh : (hostOps1 : List (HloOp τ sig (Elt F))).Forall fun op => op.fresh = ∅ := by
  simp only [List.Forall]; repeat' constructor

/-- @main is its host lines, the region, the reshape: it reduces to the region continued by the reshape, entered at
    `entryAt`. -/
theorem main_around (𝒱₀ : Variants) : Pipeline.HMainK (Ix := Unit) (Name := ℕ) (U := UR sig nD τ) (Lvl := ℕ) cfgs 0 defs₀ 𝒱₀ m (main (F := F)) (entryAt m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨pre0_fresh, pre1_fresh, pre2_fresh⟩) main_chain

/-- The reshape touches unscoped buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp post_fresh) op hop
/-- and writes its own result, which is no array of the region. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.reshape_writes, Finset.mem_singleton] <;> exact StableHlo.devRef_ne_of_ne (by decide)

/-- A buffer no host line before the region writes is found as launched. -/
theorem entry_unwritten (c : Dev nD) (b : Ref sig .tc)
    (h : ∀ op ∈ List.flatten [(hostOps0 : List (HloOp τ sig (Elt F))), hostOps0_1, hostOps0_2], Proc.devRef .tc b ∉ op.writes) :
    entryAt m c b = m ((c : Thread nD τ).loc b) :=
  StableHlo.after_of_forall_not_mem (b := Proc.devRef .tc b) _ _ h

/-! ## The arguments are written by no host line -/

/-- The simp set that reads each host line's written buffer off its text. -/
theorem arg0_entry (c : Dev nD) : entryAt m c main_arg0 = m ((c : Thread nD τ).loc main_arg0) :=
  entry_unwritten m c main_arg0 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg1_entry (c : Dev nD) : entryAt m c main_arg1 = m ((c : Thread nD τ).loc main_arg1) :=
  entry_unwritten m c main_arg1 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg2_entry (c : Dev nD) : entryAt m c main_arg2 = m ((c : Thread nD τ).loc main_arg2) :=
  entry_unwritten m c main_arg2 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))
theorem arg3_entry (c : Dev nD) : entryAt m c main_arg3 = m ((c : Thread nD τ).loc main_arg3) :=
  entry_unwritten m c main_arg3 (List.forall_iff_forall_mem.mp (by
    simp only [hostOps0, hostOps0_1, hostOps0_2, List.flatten_cons, List.flatten_nil, List.append_nil, List.cons_append,
      List.nil_append, List.Forall, StableHlo.TRef.unary, StableHlo.TRef.binary, StableHlo.nullary_writes, StableHlo.unary_writes, StableHlo.binary_writes, StableHlo.nary_writes, StableHlo.reshape_writes, Finset.mem_singleton]
    repeat' apply And.intro
    all_goals exact StableHlo.devRef_ne_of_ne (by decide)))

/-- After the reshape too: it writes its own result, and no window stages an argument. -/
theorem arg_exit (dats : (p : Fin _) → (c : Dev nD) → Dat τ (Elt F) Unit ℕ (UR sig nD τ) ℕ (cfgs p) c) (c : Dev nD)
    (b : Ref sig .tc) (hb : ∀ w, Pipeline.arrRef spec0 w ≠ b) (hne : Proc.devRef (τ := τ) (sig := sig) .tc b ≠ Proc.devRef (τ := τ) (sig := sig) .tc main_v44) :
    Pipeline.afterTail₀ cfgs dats 0 (entryVal m) [hostOps1] c b = entryAt m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact hne)),
    Pipeline.withArrays_of_ne _ c (entryVal m c) _ b hb]

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entryAt m c (Pipeline.arrRef spec0 w))

/-- An input window's staging buffer holds its block at every point, fetched there or not: between two points where it
    is not fetched the block index has not moved, and the body leaves the buffer as it found it. -/
theorem found0 {c : Dev nD} (dat : Dat τ (Elt F) Unit ℕ (UR sig nD τ) ℕ cfg0 c) (hA : dat.A 0 = entryAt m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem found1 {c : Dev nD} (dat : Dat τ (Elt F) Unit ℕ (UR sig nD τ) ℕ cfg0 c) (hA : dat.A 1 = entryAt m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem found2 {c : Dev nD} (dat : Dat τ (Elt F) Unit ℕ (UR sig nD τ) ℕ cfg0 c) (hA : dat.A 2 = entryAt m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The rectangles the body loads and stores through: each a whole staging buffer. -/
abbrev rect0 : Rect S2048x4 := Rect.unit (s := S2048x4) ![0, 0] S2048x4.size inb_S2048x4_S2048x4_0_0
abbrev rect1 : Rect S1x4x1024 := Rect.unit (s := S1x4x1024) ![0, 0, 0] S1x4x1024.size inb_S1x4x1024_S1x4x1024_0_0_0
abbrev rect2 : Rect S1x1024x2 := Rect.unit (s := S1x1024x2) ![0, 0, 0] S1x1024x2.size inb_S1x1024x2_S1x1024x2_0_0_0
abbrev rect3 : Rect S1x3x2048 := Rect.unit (s := S1x3x2048) ![0, 0, 0] S1x3x2048.size inb_S1x3x2048_S1x3x2048_0_0_0

/-- What the body leaves in the output's staging buffer, from the three input blocks: its one store, of the payload. -/
def stored (x0 : Vec F S2048x4 .f32) (x1 : Vec F S1x4x1024 .f32) (x2 : Vec F S1x1024x2 .bf16) : Vec F S1x3x2048 .f32 :=
  View.canon [⟨rect3, k0_pay1 (View.ld x0 rect0) (View.ld x1 rect1) (View.ld x2 rect2)⟩]

/-- The one store covers the buffer. -/
theorem stored_covers (p0 : Vec F S1x3x2048 .f32) (y : S1x3x2048.Idx) :
    ∃ pc ∈ ([⟨rect3, p0⟩] : List (View.Piece (Elt F) S1x3x2048 .f32)), y ∈ pc.1.set :=
  View.cover_of_tiled [⟨rect3, p0⟩] S1x3x2048.size (by rfl) y

set_option maxHeartbeats 1000000 in
/-- The body on whole staging buffers — the inputs' at contents `x0 x1 x2`, the output's at anything — runs to its end
    holding the inputs' as they were and the output's at `stored x0 x1 x2`. -/
theorem body_triple (c : Dev nD) (E : Set ℕ) (i : grid0.Coords)
    (arg2 : Memref sig .tc .vmem S2048x4 .f32) (harg2 : arg2.IsWhole) (arg3 : Memref sig .tc .vmem S1x4x1024 .f32) (harg3 : arg3.IsWhole)
    (arg4 : Memref sig .tc .vmem S1x1024x2 .bf16) (harg4 : arg4.IsWhole) (arg5 : Memref sig .tc .vmem S1x3x2048 .f32) (harg5 : arg5.IsWhole)
    (x0 : Vec F S2048x4 .f32) (x1 : Vec F S1x4x1024 .f32) (x2 : Vec F S1x1024x2 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (stored x0 x1 x2)) -∗ K ⟨⟩))
      ⊢ wp frame (wpE (defs₀ (F := F)) Variants.none c none) E (cc0__kernel i arg2 harg2 arg3 harg3 arg4 harg4 arg5 harg5) K := by
  simp only [cc0__kernel_eq_skeleton]; unfold cc0__kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (stored_covers _)

/-! ## The proof data -/

/-- The region's proof data on core `c`: the arrays as found on entry; after the body at point `t` each input's buffer
    at its block and the output's at `stored` of the three blocks; the invariant untouched; nothing owed; full shares. -/
def dats (_ : Fin 1) (c : Dev nD) : Dat τ (Elt F) Unit ℕ (UR sig nD τ) ℕ cfg0 c where
  A w := entryAt m c (Pipeline.arrRef spec0 w)
  after w t := match w with
    | ⟨0, _⟩ => blockAt m c 0 t
    | ⟨1, _⟩ => blockAt m c 1 t
    | ⟨2, _⟩ => blockAt m c 2 t
    | ⟨3, _⟩ => stored (blockAt m c 0 t) (blockAt m c 1 t) (blockAt m c 2 t)
  Φ _ := Pipeline.ΦA spec0 c
  q _ := fullShare
  owed _ := 0

theorem arrays_entry (c : Dev nD) (w : Fin cfg0.W) : (dats m 0 c).A w = entryAt m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) :
    (dats m 0 c).after 3 t = stored (blockAt m c 0 t) (blockAt m c 1 t) (blockAt m c 2 t) := by dsimp only [dats]

theorem before0 (c : Dev nD) (t : Fin cfg0.N) (d) : (dats m 0 c).before 0 t d = blockAt m c 0 t :=
  found0 m (dats m 0 c) (arrays_entry m c 0) (after0 m c) t d
theorem before1 (c : Dev nD) (t : Fin cfg0.N) (d) : (dats m 0 c).before 1 t d = blockAt m c 1 t :=
  found1 m (dats m 0 c) (arrays_entry m c 1) (after1 m c) t d
theorem before2 (c : Dev nD) (t : Fin cfg0.N) (d) : (dats m 0 c).before 2 t d = blockAt m c 2 t :=
  found2 m (dats m 0 c) (arrays_entry m c 2) (after2 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the triple applies; the invariant and what the
    core owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- Every weakly fair execution of @main terminates, and every final state has each array of the region at what the
    proof data's blocks cover it with, and every other unscoped buffer as the reshape after the region leaves it. -/
theorem run_main : θ_run defs (onTc (τ := τ) (main (F := F))) (s₀ m ρ) (Pipeline.FramePost cfgs (dats m) 0 (Pipeline.afterTail₀ cfgs (dats m) 0 (entryVal m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entryVal m) (opss := [hostOps1]) (hsub := tail_sub) (hfresh := tail_fresh) (hkeep := tail_keeps)
    (hmain := main_around m Variants.none) (hA := arrays_entry m) (hΦ := fun _ _ => rfl)

/-- An argument array ends as launched: no window stages it and no host line writes it. -/
theorem arg_kept (c : Dev nD) (b : Ref sig .tc) (hb : ∀ w, Pipeline.arrRef spec0 w ≠ b) (hne : Proc.devRef (τ := τ) (sig := sig) .tc b ≠ Proc.devRef (τ := τ) (sig := sig) .tc main_v44)
    (hin : b ∈ Pipeline.restRefs sig spec0) (he : entryAt m c b = m ((c : Thread nD τ).loc b))
    (r) (h : Pipeline.FramePost cfgs (dats m) 0 (Pipeline.afterTail₀ cfgs (dats m) 0 (entryVal m) [hostOps1]) r) :
    r.2.mem ((c.tc : Thread nD τ).loc b) = m ((c.tc : Thread nD τ).loc b) :=
  (((h c).2 b hin).trans (arg_exit m (dats m) c b hb hne)).trans he

/-- THE FRAME: the run with everything but the arguments forgotten. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨arg_kept m c main_arg0 (by decide) (StableHlo.devRef_ne_of_ne (by decide)) (Pipeline.mem_restRefs_of main_arg0 (by decide) (by decide)) (arg0_entry m c) r h,
     arg_kept m c main_arg1 (by decide) (StableHlo.devRef_ne_of_ne (by decide)) (Pipeline.mem_restRefs_of main_arg1 (by decide) (by decide)) (arg1_entry m c) r h,
     arg_kept m c main_arg2 (by decide) (StableHlo.devRef_ne_of_ne (by decide)) (Pipeline.mem_restRefs_of main_arg2 (by decide) (by decide)) (arg2_entry m c) r h,
     arg_kept m c main_arg3 (by decide) (StableHlo.devRef_ne_of_ne (by decide)) (Pipeline.mem_restRefs_of main_arg3 (by decide) (by decide)) (arg3_entry m c) r h⟩)
    (run_main m ρ)

end Cert.KernelIdeal.Hand

end
-- ==== Proof.Spec.lean ====
/-
  The two arrangements of the radial-basis feature map, as functions of coordinates on the extended reals.

  Inputs: context points `X b n d` (8 batches, 1024 points, 2 coordinates), their features `Y b n c`
  (2 channels), image points `P g d` (16384 points, 2 coordinates) and one number `ll`, the logarithm of the
  length scale.  With `l = exp (min 5 (max (-5) ll))` and `D = (2·l)·l`:

  * the DIRECT arrangement weighs context point `n` at image point `g` by `exp (-(|P g - X b n|²) / D)`, sums the
    weights against the features extended by a leading channel of ones, and divides the two feature channels by
    the channel of ones (the density);
  * the AUGMENTED arrangement puts `s = 1 / D` and writes the exponent as ONE contraction over four terms,
    `(2s·P g 0)·X b n 0 + (2s·P g 1)·X b n 1 + (-s·|P g|²)·1 + 1·(-s·|X b n|²)`, sums the weights for the density,
    sums them against the two feature channels, and divides.

  The float words are kept as the words both programs spell (2.0, 1.0, 5.0, -5.0); no program is imported here.
-/
import Idealize.ShloMosaic.PureOps.Ideal

noncomputable section

namespace Cert.RbfSpec

open Idealize.ShloMosaic

/-- The four float words the programs spell. -/
abbrev wTwo : EReal := Ideal.ofBits .f32 0x40000000#32
abbrev wOne : EReal := Ideal.ofBits .f32 0x3F800000#32
abbrev wFive : EReal := Ideal.ofBits .f32 0x40A00000#32
abbrev wNegFive : EReal := Ideal.ofBits .f32 0xC0A00000#32

/-- The length scale: the exponential of the logarithm clamped into [-5, 5]. -/
def lscale (ll : EReal) : EReal := Ideal.exp (min wFive (max wNegFive ll))

/-- The divisor `(2·l)·l`. -/
def denom (ll : EReal) : EReal := (wTwo * lscale ll) * lscale ll

/-- The image point of row `iy`, column `ix` of the 128 × 128 image, in row-major order. -/
def pointOf (iy ix : Fin 128) : Fin 16384 := ⟨iy.val * 128 + ix.val, by omega⟩

section Direct

variable (X Y : Fin 8 → Fin 1024 → Fin 2 → EReal) (P : Fin 16384 → Fin 2 → EReal) (ll : EReal)

/-- The weight of context point `n` at image point `g`: `exp (-(|P g - X b n|²) / D)`. -/
def directWeight (b : Fin 8) (g : Fin 16384) (n : Fin 1024) : EReal :=
  Ideal.exp (Ideal.div (-(∑ d : Fin 2, (P g d - X b n d) * (P g d - X b n d))) (denom ll))

/-- The features extended by a leading channel of ones. -/
def extended (b : Fin 8) (n : Fin 1024) : Fin 3 → EReal
  | ⟨0, _⟩ => wOne
  | ⟨1, _⟩ => Y b n 0
  | ⟨_ + 2, _⟩ => Y b n 1

/-- The weights summed against the extended features. -/
def directSum (b : Fin 8) (g : Fin 16384) (c : Fin 3) : EReal :=
  ∑ n : Fin 1024, directWeight X P ll b g n * extended Y b n c

/-- Channel 0 is the density; channels 1 and 2 are the feature sums divided by it. -/
def directOut (b : Fin 8) (g : Fin 16384) : Fin 3 → EReal
  | ⟨0, _⟩ => directSum X Y P ll b g 0
  | ⟨1, _⟩ => Ideal.div (directSum X Y P ll b g 1) (directSum X Y P ll b g 0)
  | ⟨_ + 2, _⟩ => Ideal.div (directSum X Y P ll b g 2) (directSum X Y P ll b g 0)

end Direct

section Augmented

variable (X Y : Fin 8 → Fin 1024 → Fin 2 → EReal) (P : Fin 16384 → Fin 2 → EReal) (ll : EReal)

/-- The scale `s = 1 / D`. -/
def scale (ll : EReal) : EReal := Ideal.div wOne (denom ll)

/-- The squared norms. -/
def sqP (g : Fin 16384) : EReal := ∑ d : Fin 2, P g d * P g d
def sqX (b : Fin 8) (n : Fin 1024) : EReal := ∑ d : Fin 2, X b n d * X b n d

/-- The image side of the contraction: `[2s·P g 0, 2s·P g 1, -s·|P g|², 1]`. -/
def augLeft (g : Fin 16384) : Fin 4 → EReal
  | ⟨0, _⟩ => (wTwo * scale ll) * P g 0
  | ⟨1, _⟩ => (wTwo * scale ll) * P g 1
  | ⟨2, _⟩ => (-(scale ll)) * sqP P g
  | ⟨_ + 3, _⟩ => wOne

/-- The context side: `[X b n 0, X b n 1, 1, -s·|X b n|²]`. -/
def augRight (b : Fin 8) (n : Fin 1024) : Fin 4 → EReal
  | ⟨0, _⟩ => X b n 0
  | ⟨1, _⟩ => X b n 1
  | ⟨2, _⟩ => wOne
  | ⟨_ + 3, _⟩ => (-(scale ll)) * sqX X b n

/-- The weight as the exponential of the four-term contraction. -/
def augWeight (b : Fin 8) (g : Fin 16384) (n : Fin 1024) : EReal :=
  Ideal.exp (∑ k : Fin 4, augLeft P ll g k * augRight X ll b n k)

/-- The density: the weights summed. -/
def augDensity (b : Fin 8) (g : Fin 16384) : EReal := ∑ n : Fin 1024, augWeight X P ll b g n

/-- The weights summed against feature channel `c`. -/
def augFeature (b : Fin 8) (g : Fin 16384) (c : Fin 2) : EReal :=
  ∑ n : Fin 1024, augWeight X P ll b g n * Y b n c

/-- Channel 0 is the density; channels 1 and 2 are the feature sums divided by it. -/
def augOut (b : Fin 8) (g : Fin 16384) : Fin 3 → EReal
  | ⟨0, _⟩ => augDensity X P ll b g
  | ⟨1, _⟩ => Ideal.div (augFeature X Y P ll b g 0) (augDensity X P ll b g)
  | ⟨_ + 2, _⟩ => Ideal.div (augFeature X Y P ll b g 1) (augDensity X P ll b g)

end Augmented

end Cert.RbfSpec

end
-- ==== Proof.KIBlocks.lean ====
/-
  From blocks to arrays, for the idealized kernel program.

  Grid point `t` of the 8 × 8 grid is `(b, g)`: the output window's block index there is `(b, 0, g)`, the augmented
  image array's is `(g, 0)`, and the augmented context array's and the features' are `(b, 0, 0)`.  So element `(0, ch, j)`
  of the output block at `t` is element `(b, ch, 2048·g + j)` of the [8, 3, 16384] result, row `j` of the image block is row
  `2048·g + j` of the augmented image array, and the other two blocks are slab `b` of their arrays.  Every index of the
  result lies in the block of the point `(i 0, i 2 / 2048)`, and every point writes its block back: the blocks cover
  the result.  The reshape to [8, 3, 128, 128] after the region reads element `(b, ch, iy, ix)` at `(b, ch, 128·iy + ix)`.
-/
import proofs.«117513_j37263136260428_2_alg».proof.Proof.KIFrame
import proofs.«117513_j37263136260428_2_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Whole

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The printed index maps, decided over the 64 grid points: the image block moves with the output's last block
    coordinate, the context and feature slabs with its first, every other block coordinate is zero, and the output's
    block coordinates stay below 8. -/
theorem index_facts : ∀ t : Fin cfg0.N,
    win0_0.index t (0 : Fin 2) = win0_3.index t (2 : Fin 3) ∧ win0_0.index t (1 : Fin 2) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (0 : Fin 3) < 8 ∧ win0_3.index t (2 : Fin 3) < 8 :=
  (by decide +kernel : ∀ t : Fin grid0.N, _)

/-- Every pair (batch, tile) is some grid point's. -/
theorem index_onto : ∀ (q0 q2 : Fin 8), ∃ t : Fin cfg0.N, win0_3.index t = ![q0.val, 0, q2.val] :=
  (by decide +kernel : ∀ (q0 q2 : Fin 8), ∃ t : Fin grid0.N, win0_3.index t = ![q0.val, 0, q2.val])

/-! ## Each input block read off its array -/

/-- Row `j` of the image block at `t` is row `2048·g + j` of the augmented image array. -/
theorem block0_read (c : Dev nD) (t : Fin cfg0.N) (j : Fin 2048) (k : Fin 4) (hlt : win0_3.index t (2 : Fin 3) * 2048 + j.val < 16384) :
    blockAt m c 0 t (ix2 j k) = entryAt m c main_v26 (ix2 ⟨win0_3.index t (2 : Fin 3) * 2048 + j.val, hlt⟩ k) := by
  obtain ⟨e0, e1, -⟩ := index_facts t
  show entryAt m c main_v26 (((cfg0.win 0).blk t).view.emb (ix2 j k)) = _
  refine congrArg _ ?_
  funext a; apply Fin.ext
  match a with
  | ⟨0, _⟩ => show win0_0.index t (0 : Fin 2) * 2048 + 1 * j.val = win0_3.index t (2 : Fin 3) * 2048 + j.val; omega
  | ⟨1, _⟩ => show win0_0.index t (1 : Fin 2) * 4 + 1 * k.val = k.val; omega

/-- The context block at `t` is slab `b` of the augmented context array. -/
theorem block1_read (c : Dev nD) (t : Fin cfg0.N) (k : Fin 4) (n : Fin 1024) (hlt : win0_3.index t (0 : Fin 3) < 8) :
    blockAt m c 1 t (ix3 (0 : Fin 1) k n) = entryAt m c main_v41 (ix3 ⟨win0_3.index t (0 : Fin 3), hlt⟩ k n) := by
  obtain ⟨-, -, e0, e1, e2, -⟩ := index_facts t
  show entryAt m c main_v41 (((cfg0.win 1).blk t).view.emb (ix3 (0 : Fin 1) k n)) = _
  refine congrArg _ ?_
  funext a; apply Fin.ext
  match a with
  | ⟨0, _⟩ => show win0_1.index t (0 : Fin 3) * 1 + 1 * 0 = win0_3.index t (0 : Fin 3); omega
  | ⟨1, _⟩ => show win0_1.index t (1 : Fin 3) * 4 + 1 * k.val = k.val; omega
  | ⟨2, _⟩ => show win0_1.index t (2 : Fin 3) * 1024 + 1 * n.val = n.val; omega

/-- The feature block at `t` is slab `b` of the features. -/
theorem block2_read (c : Dev nD) (t : Fin cfg0.N) (n : Fin 1024) (d : Fin 2) (hlt : win0_3.index t (0 : Fin 3) < 8) :
    blockAt m c 2 t (ix3 (0 : Fin 1) n d) = entryAt m c main_v42 (ix3 ⟨win0_3.index t (0 : Fin 3), hlt⟩ n d) := by
  obtain ⟨-, -, -, -, -, e0, e1, e2, -⟩ := index_facts t
  show entryAt m c main_v42 (((cfg0.win 2).blk t).view.emb (ix3 (0 : Fin 1) n d)) = _
  refine congrArg _ ?_
  funext a; apply Fin.ext
  match a with
  | ⟨0, _⟩ => show win0_2.index t (0 : Fin 3) * 1 + 1 * 0 = win0_3.index t (0 : Fin 3); omega
  | ⟨1, _⟩ => show win0_2.index t (1 : Fin 3) * 1024 + 1 * n.val = n.val; omega
  | ⟨2, _⟩ => show win0_2.index t (2 : Fin 3) * 2 + 1 * d.val = d.val; omega

/-! ## The output's blocks cover the result -/

/-- An index of the result is in point `t`'s block iff each coordinate is in the block's range on its axis. -/
theorem mem_block3 (t : Fin cfg0.N) (i : S8x3x16384.Idx) :
    i ∈ ((cfg0.win 3).blk t).view.set ↔ ∀ a : Fin 3, win0_3.index t a * S1x3x2048.size a ≤ (i a).val ∧ (i a).val < win0_3.index t a * S1x3x2048.size a + S1x3x2048.size a := by
  show i ∈ ((View.whole main_v43).slice (win0_3.rect t)).set ↔ _
  rw [View.set_slice_whole, Rect.mem_set_unit]
  exact Iff.rfl

/-- Every index of the result is in the block of some point, and every point writes its block back. -/
theorem covered3 (i : S8x3x16384.Idx) :
    ∃ t : Fin cfg0.N, (cfg0.win 3).flush t = true ∧ i ∈ ((cfg0.win 3).blk t).view.set := by
  have h0 : (i 0).val < 8 := (i 0).isLt
  have h1 : (i 1).val < 3 := (i 1).isLt
  have h2 : (i 2).val < 16384 := (i 2).isLt
  obtain ⟨t, ht⟩ := index_onto ⟨(i 0).val, h0⟩ ⟨(i 2).val / 2048, by omega⟩
  have q0 : win0_3.index t (0 : Fin 3) = (i 0).val := congrFun ht 0
  have q1 : win0_3.index t (1 : Fin 3) = 0 := congrFun ht 1
  have q2 : win0_3.index t (2 : Fin 3) = (i 2).val / 2048 := congrFun ht 2
  refine ⟨t, flush0_3 t, ?_⟩
  rw [mem_block3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 3 ≤ (i 1).val ∧ (i 1).val < win0_3.index t (1 : Fin 3) * 3 + 3; omega
  | ⟨2, _⟩ => show win0_3.index t (2 : Fin 3) * 2048 ≤ (i 2).val ∧ (i 2).val < win0_3.index t (2 : Fin 3) * 2048 + 2048; omega

/-! ## The reshape after the region -/

/-- The [8, 3, 16384] result cast to [8, 3, 128, 128] reads, at `(b, ch, iy, ix)`, the result at `(b, ch, 128·iy + ix)`. -/
theorem image_read (A : S8x3x16384.Idx → EReal) (h : S8x3x16384.ShapeCasts S8x3x128x128) (b : Fin 8) (ch : Fin 3) (iy ix : Fin 128) :
    shapeCast S8x3x128x128 A h (ix4 b ch iy ix) = A (ix3 b ch (Cert.RbfSpec.pointOf iy ix)) :=
  shapeCast_apply A h _ _ (by
    rw [Shape.rowMajor_val_four, Shape.rowMajor_val_three]
    show (b.val * 3 + ch.val) * 16384 + (iy.val * 128 + ix.val) = ((b.val * 3 + ch.val) * 128 + iy.val) * 128 + ix.val
    omega)

end Cert.KernelIdeal.Whole

end
-- ==== Proof.LibPlainDot.lean ====
/-
  A plain matrix product read at an index, at the ideal instance.

  For the dimension numbers "rows × contraction times contraction × columns" (`DotDims.plain M K N`) both the
  vector unit's matmul into a zero accumulator and the host's dot_general are, at output index (a, b), the sum over
  k of l (a, k) · r (k, b) on the extended reals. The sum over the one-axis contraction index is re-indexed by its
  one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of a plain product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx, l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.LibLane.lean ====
/- A lane sum read at a row: the float add-reduction of an [a, b] vector over its second axis, from the zero
   accumulator, is at the extended reals the plain sum over the lane of the row's entries. -/
import Idealize.ShloMosaic.PureOps.Ideal.Laws
import Idealize.ShloMosaic.Lib.ValueIdx
import Idealize.ShloMosaic.Lib.ValueLayout
import Idealize.ShloMosaic.Lib.Pipeline.Value

noncomputable section
namespace Cert.LibLane
open Idealize.ShloMosaic Idealize.ShloMosaic.ValueIdx

/-- A lane sum of an [a, b] vector (a float `multi_reduction <add>` over axis 1 from the zero accumulator) read at
    row `r`, at the extended reals: the sum over the lane `j` of the entries `(r, j)`. -/
theorem laneSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = 0x00000000#32) (r : Fin a) :
    multiReduction .add [1] ⟨1, ![a]⟩ src 0x00000000#32 h hφ hacc (ix1 r) = ∑ j : Fin b, src (ix2 r j) := by
  refine (Ideal.multiReduction_add_single src 0x00000000#32 h hφ hacc (ix1 r)).trans ?_
  refine Finset.sum_congr rfl fun j _ => congrArg src ?_
  funext d
  match d with
  | ⟨0, _⟩ => rfl
  | ⟨1, _⟩ => rfl

end Cert.LibLane
end
-- ==== Proof.LibIndexRead.lean ====
/-
  Layout operations read at an index written by coordinates, for the shapes a row-wise kernel meets:
  a vector of row values kept as a column ([a] cast to [a, 1]), a column spread over the lanes
  ([a, 1] broadcast to [a, b]), a unit-stride rectangular load of a matrix read at (k, j), and the
  host's spellings of the same moves (broadcast_in_dim of a scalar, of a vector along rows or columns,
  a rectangular slice of a matrix). Each statement reads the operation at `ix2 p q` / `ix1 p` and names the
  operand's index by coordinates, so that it applies to a printed operation by unification.
-/
import Idealize.ShloMosaic.Lib.Pipeline.Value
import Idealize.ShloMosaic.Lib.Pipeline.FrameBody
import Idealize.ShloMosaic.Lib.ValueIdx
import Idealize.ShloMosaic.Lib.ValueLayout

namespace Idealize.ShloMosaic.RowRead

open Idealize.ShloMosaic Idealize.ShloMosaic.ValueIdx

variable {α : Type}

/-- An `[a]` array cast to `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A unit-stride rectangle of a matrix, loaded, reads at `(k, j)` the matrix at the rectangle's corner plus `(k, j)`. -/
theorem ld_unit2_apply {Val : EltTy → Type} {e : EltTy} {A B a b : ℕ} (X : (⟨2, ![A, B]⟩ : Shape).Idx → Val e) (o0 o1 : ℕ)
    (inb : ∀ d, (![o0, o1] : Fin 2 → ℕ) d + (![a, b] : Fin 2 → ℕ) d ≤ (⟨2, ![A, B]⟩ : Shape).size d)
    (k : Fin a) (j : Fin b) :
    View.ld X (Rect.unit (s := ⟨2, ![A, B]⟩) ![o0, o1] ![a, b] inb) (ix2 k j)
      = X (ix2 ⟨o0 + k.val, Nat.lt_of_lt_of_le (Nat.add_lt_add_left k.isLt o0) (inb 0)⟩
            ⟨o1 + j.val, Nat.lt_of_lt_of_le (Nat.add_lt_add_left j.isLt o1) (inb 1)⟩) := by
  show X ((Rect.unit (s := ⟨2, ![A, B]⟩) ![o0, o1] ![a, b] inb).idx (ix2 k j)) = _
  refine congrArg X (funext fun d => Fin.ext ?_)
  match d with
  | ⟨0, _⟩ => show o0 + 1 * k.val = o0 + k.val; rw [Nat.one_mul]
  | ⟨1, _⟩ => show o1 + 1 * j.val = o1 + j.val; rw [Nat.one_mul]

/-! ## The host's spellings

The axis map of a `broadcast_in_dim` is a variable of each statement, with the hypothesis `dims = ![…]`; at an operation whose
axis map is that literal the hypothesis holds by reflexivity. -/

/-- A scalar spread over any shape reads the scalar. -/
theorem broadcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun d => d.elim0

/-- An `[a]` vector placed along the rows of an `[a, 1]` column reads, at `(p, u)`, the vector at `p`. -/
theorem broadcastInDim_a_a1_apply {a : ℕ} (dims : Fin (⟨1, ![a]⟩ : Shape).rank → Fin (⟨2, ![a, 1]⟩ : Shape).rank)
    (h : (⟨1, ![a]⟩ : Shape).BroadcastsInDim ⟨2, ![a, 1]⟩ dims) (hd : dims = ![0])
    (x : (⟨1, ![a]⟩ : Shape).Idx → α) (p : Fin a) (u : Fin 1) :
    broadcastInDim ⟨2, ![a, 1]⟩ dims h x (ix2 p u) = x (ix1 p) := by
  subst hd
  refine broadcastInDim_apply _ h x (ix2 p u) (ix1 p) fun d => ?_
  match d with
  | ⟨0, _⟩ =>
    show p.val = if a = 1 then 0 else p.val
    split
    · have := p.isLt; omega
    · rfl

/-- An `[a, 1]` column spread to `[a, b]` reads, at `(p, c)`, the column's entry of row `p`. -/
theorem broadcastInDim_a1_ab_apply {a b : ℕ} (dims : Fin (⟨2, ![a, 1]⟩ : Shape).rank → Fin (⟨2, ![a, b]⟩ : Shape).rank)
    (h : (⟨2, ![a, 1]⟩ : Shape).BroadcastsInDim ⟨2, ![a, b]⟩ dims) (hd : dims = ![0, 1])
    (x : (⟨2, ![a, 1]⟩ : Shape).Idx → α) (p : Fin a) (c : Fin b) :
    broadcastInDim ⟨2, ![a, b]⟩ dims h x (ix2 p c) = x (ix2 p (0 : Fin 1)) := by
  subst hd
  refine broadcastInDim_apply _ h x (ix2 p c) (ix2 p (0 : Fin 1)) fun d => ?_
  match d with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` vector laid as the one row of `[1, b]` reads, at `(u, c)`, the vector at `c`. -/
theorem broadcastInDim_b_1b_apply {b : ℕ} (dims : Fin (⟨1, ![b]⟩ : Shape).rank → Fin (⟨2, ![1, b]⟩ : Shape).rank)
    (h : (⟨1, ![b]⟩ : Shape).BroadcastsInDim ⟨2, ![1, b]⟩ dims) (hd : dims = ![1])
    (x : (⟨1, ![b]⟩ : Shape).Idx → α) (u : Fin 1) (c : Fin b) :
    broadcastInDim ⟨2, ![1, b]⟩ dims h x (ix2 u c) = x (ix1 c) := by
  subst hd
  refine broadcastInDim_apply _ h x (ix2 u c) (ix1 c) fun d => ?_
  match d with
  | ⟨0, _⟩ =>
    show c.val = if b = 1 then 0 else c.val
    split
    · have := c.isLt; omega
    · rfl

/-- A `[1, b]` row spread over `[a, b]` reads, at `(p, c)`, the row at `c`. -/
theorem broadcastInDim_1b_ab_apply {a b : ℕ} (dims : Fin (⟨2, ![1, b]⟩ : Shape).rank → Fin (⟨2, ![a, b]⟩ : Shape).rank)
    (h : (⟨2, ![1, b]⟩ : Shape).BroadcastsInDim ⟨2, ![a, b]⟩ dims) (hd : dims = ![0, 1])
    (x : (⟨2, ![1, b]⟩ : Shape).Idx → α) (p : Fin a) (c : Fin b) :
    broadcastInDim ⟨2, ![a, b]⟩ dims h x (ix2 p c) = x (ix2 (0 : Fin 1) c) := by
  subst hd
  refine broadcastInDim_apply _ h x (ix2 p c) (ix2 (0 : Fin 1) c) fun d => ?_
  match d with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A unit-stride rectangular slice of a matrix reads, at `(k, j)`, the matrix at the offsets plus `(k, j)`. -/
theorem slice2_apply {A B a b : ℕ} (o0 o1 : ℕ) (X : (⟨2, ![A, B]⟩ : Shape).Idx → α)
    (h : (⟨2, ![A, B]⟩ : Shape).Slices ![o0, o1] ⟨2, ![a, b]⟩) (k : Fin a) (j : Fin b)
    (h0 : o0 + k.val < A) (h1 : o1 + j.val < B) :
    extractStridedSlice ⟨2, ![a, b]⟩ ![o0, o1] X h (ix2 k j) = X (ix2 ⟨o0 + k.val, h0⟩ ⟨o1 + j.val, h1⟩) := by
  refine extractStridedSlice_apply ![o0, o1] X h (ix2 k j) _ fun d => ?_
  match d with
  | ⟨0, _⟩ => rfl
  | ⟨1, _⟩ => rfl

end Idealize.ShloMosaic.RowRead
-- ==== Proof.LibConcatRead.lean ====
/-
  A two-operand `concatenate` read at an index, in the three arrangements a flat or two-row array is assembled in.

  Laying two arrays end to end along an axis, the result at a position below the first array's extent on that axis
  is the first array there; at a position at or past it, the second array at the position less that extent. The
  other coordinates are unchanged. The three forms: two flat arrays `[A] ++ [B]`; two single-row matrices stacked
  into a two-row matrix `[1, M] ++ [1, M]` along the rows; two matrices of equally many rows joined along the columns
  `[R, A] ++ [R, B]`. In each the result's extent on the joined axis is a variable `T`; that it is the sum of the two
  operands' extents is part of the hypothesis `h`.
-/
import Idealize.ShloMosaic.Lib.ValueIdx
import Idealize.ShloMosaic.Lib.Pipeline.Value

noncomputable section

namespace Cert.LibConcatRead

open Idealize.ShloMosaic Idealize.ShloMosaic.ValueIdx

variable {α : Type}

/-! ## Two flat arrays: `[A] ++ [B] → [T]` -/

/-- The result's extent is the sum of the two operands' extents. -/
theorem concat_vec_total {A B T : Nat} (h : Shape.Concatenates [⟨1, ![A]⟩, ⟨1, ![B]⟩] ⟨1, ![T]⟩ 0) : A + B = T := by
  have e : A + (B + 0) = T := h.2.2
  omega

/-- Below the first array's extent the concatenation is the first array. -/
theorem concat_vec_apply_left {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : e.val < A) :
    concatenate ⟨1, ![T]⟩ 0 [⟨⟨1, ![A]⟩, x₁⟩, ⟨⟨1, ![B]⟩, x₂⟩] h (ix1 e) = x₁ (ix1 ⟨e.val, he⟩) := by
  refine concatenate_pair_apply_left 0 x₁ x₂ h (ix1 e) rfl (ix1 ⟨e.val, he⟩) ?_
  intro b
  match b with
  | ⟨0, _⟩ => rfl

/-- At or past the first array's extent the concatenation is the second array, that extent less. -/
theorem concat_vec_apply_right {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) (he : A ≤ e.val) (hB : e.val - A < B) :
    concatenate ⟨1, ![T]⟩ 0 [⟨⟨1, ![A]⟩, x₁⟩, ⟨⟨1, ![B]⟩, x₂⟩] h (ix1 e) = x₂ (ix1 ⟨e.val - A, hB⟩) := by
  refine concatenate_pair_apply_right 0 x₁ x₂ h (ix1 e) rfl rfl (ix1 ⟨e.val - A, hB⟩) ?_ ?_
  · intro b hb
    match b with
    | ⟨0, _⟩ => exact absurd rfl hb
  · show e.val - A + A = e.val
    omega

/-- The concatenation of two flat arrays at `e`: the first at `e` when `e < A`, else the second at `e − A`. -/
theorem concat_vec_apply {A B T : Nat} (x₁ : (⟨1, ![A]⟩ : Shape).Idx → α) (x₂ : (⟨1, ![B]⟩ : Shape).Idx → α)
    (h : Shape.Concatenates [⟨1, ![A]⟩, ⟨1, ![B]⟩] ⟨1, ![T]⟩ 0) (e : Fin T) :
    concatenate ⟨1, ![T]⟩ 0 [⟨⟨1, ![A]⟩, x₁⟩, ⟨⟨1, ![B]⟩, x₂⟩] h (ix1 e)
      = if he : e.val < A then x₁ (ix1 ⟨e.val, he⟩)
        else x₂ (ix1 ⟨e.val - A, by have := concat_vec_total h; have := e.isLt; omega⟩) := by
  by_cases he : e.val < A
  · rw [dif_pos he]; exact concat_vec_apply_left x₁ x₂ h e he
  · rw [dif_neg he]; exact concat_vec_apply_right x₁ x₂ h e (by omega) _

/-! ## Two single-row matrices stacked: `[1, M] ++ [1, M] → [2, M]` along the rows -/

/-- Row `0` of the stack is the first matrix's only row. -/
theorem concat_rows_apply_zero {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 0 m) = x₁ (ix2 0 m) := by
  refine concatenate_pair_apply_left 0 x₁ x₂ h (ix2 0 m) rfl (ix2 0 m) ?_
  intro b
  match b with
  | ⟨0, _⟩ => rfl
  | ⟨1, _⟩ => rfl

/-- Row `1` of the stack is the second matrix's only row. -/
theorem concat_rows_apply_one {M : Nat} (x₁ x₂ : (⟨2, ![1, M]⟩ : Shape).Idx → α)
    (h : Shape.Concatenates [⟨2, ![1, M]⟩, ⟨2, ![1, M]⟩] ⟨2, ![2, M]⟩ 0) (m : Fin M) :
    concatenate ⟨2, ![2, M]⟩ 0 [⟨⟨2, ![1, M]⟩, x₁⟩, ⟨⟨2, ![1, M]⟩, x₂⟩] h (ix2 1 m) = x₂ (ix2 0 m) := by
  refine concatenate_pair_apply_right 0 x₁ x₂ h (ix2 1 m) rfl rfl (ix2 0 m) ?_ ?_
  · intro b hb
    match b with
    | ⟨0, _⟩ => exact absurd rfl hb
    | ⟨1, _⟩ => rfl
  · rfl

/-- The stack at `(r, m)`: the first matrix at `(0, m)` when `r = 0`, the second at `(0, m)` when `r = 1`. -/
theorem concat_rows_apply {M : Nat} (x₁ x₂ : (⟨2, ![1, M]⟩ : Shape).Idx → α)
    (h : Shape.Concatenates [⟨2, ![1, M]⟩, ⟨2, ![1, M]⟩] ⟨2, ![2, M]⟩ 0) (r : Fin 2) (m : Fin M) :
    concatenate ⟨2, ![2, M]⟩ 0 [⟨⟨2, ![1, M]⟩, x₁⟩, ⟨⟨2, ![1, M]⟩, x₂⟩] h (ix2 r m)
      = if r = 0 then x₁ (ix2 0 m) else x₂ (ix2 0 m) := by
  match r with
  | ⟨0, _⟩ => exact concat_rows_apply_zero x₁ x₂ h m
  | ⟨1, _⟩ => exact concat_rows_apply_one x₁ x₂ h m

/-! ## Two matrices joined along the columns: `[R, A] ++ [R, B] → [R, T]` -/

/-- The result's column extent is the sum of the two operands' column extents. -/
theorem concat_cols_total {R A B T : Nat} (h : Shape.Concatenates [⟨2, ![R, A]⟩, ⟨2, ![R, B]⟩] ⟨2, ![R, T]⟩ 1) :
    A + B = T := by
  have e : A + (B + 0) = T := h.2.2
  omega

/-- In a column below the first matrix's column extent the join is the first matrix. -/
theorem concat_cols_apply_left {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : e.val < A) :
    concatenate ⟨2, ![R, T]⟩ 1 [⟨⟨2, ![R, A]⟩, x₁⟩, ⟨⟨2, ![R, B]⟩, x₂⟩] h (ix2 r e) = x₁ (ix2 r ⟨e.val, he⟩) := by
  refine concatenate_pair_apply_left 1 x₁ x₂ h (ix2 r e) rfl (ix2 r ⟨e.val, he⟩) ?_
  intro b
  match b with
  | ⟨0, _⟩ => rfl
  | ⟨1, _⟩ => rfl

/-- In a column at or past the first matrix's column extent the join is the second matrix, that extent less. -/
theorem concat_cols_apply_right {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) (he : A ≤ e.val)
    (hB : e.val - A < B) :
    concatenate ⟨2, ![R, T]⟩ 1 [⟨⟨2, ![R, A]⟩, x₁⟩, ⟨⟨2, ![R, B]⟩, x₂⟩] h (ix2 r e) = x₂ (ix2 r ⟨e.val - A, hB⟩) := by
  refine concatenate_pair_apply_right 1 x₁ x₂ h (ix2 r e) rfl rfl (ix2 r ⟨e.val - A, hB⟩) ?_ ?_
  · intro b hb
    match b with
    | ⟨0, _⟩ => rfl
    | ⟨1, _⟩ => exact absurd rfl hb
  · show e.val - A + A = e.val
    omega

/-- The join at `(r, e)`: the first matrix at `(r, e)` when `e < A`, else the second at `(r, e − A)`. -/
theorem concat_cols_apply {R A B T : Nat} (x₁ : (⟨2, ![R, A]⟩ : Shape).Idx → α) (x₂ : (⟨2, ![R, B]⟩ : Shape).Idx → α)
    (h : Shape.Concatenates [⟨2, ![R, A]⟩, ⟨2, ![R, B]⟩] ⟨2, ![R, T]⟩ 1) (r : Fin R) (e : Fin T) :
    concatenate ⟨2, ![R, T]⟩ 1 [⟨⟨2, ![R, A]⟩, x₁⟩, ⟨⟨2, ![R, B]⟩, x₂⟩] h (ix2 r e)
      = if he : e.val < A then x₁ (ix2 r ⟨e.val, he⟩)
        else x₂ (ix2 r ⟨e.val - A, by have := concat_cols_total h; have := e.isLt; omega⟩) := by
  by_cases he : e.val < A
  · rw [dif_pos he]; exact concat_cols_apply_left x₁ x₂ h r e he
  · rw [dif_neg he]; exact concat_cols_apply_right x₁ x₂ h r e (by omega) _

end Cert.LibConcatRead

end
-- ==== Proof.BodyRead.lean ====
/-
  The kernel body's stored block, read at an index.

  One grid step holds a tile of 2048 image points as rows of four augmented coordinates (v0), one batch's 1024
  context points as four rows of augmented coordinates (v2), and that batch's two feature channels (v4).  Its
  whole arithmetic is one term: the weight of context point n at image point j is the exponential of the
  four-term contraction ∑ k, v0 (j, k) · v2 (0, k, n); the density at j is the sum of the weights over n; a
  feature channel c at j is the sum over n of weight times v4 (0, n, c), divided by the density.  The stored
  block lays the density and the two quotients as rows 0, 1, 2 of a [1, 3, 2048] array.

  Every non-pointwise operation is read by one lemma at explicit coordinates: the casts that drop or add a leading
  unit axis, the two matrix products into a zero accumulator as plain sums over the contraction coordinate, the lane
  sum as a plain sum over the lane, the column cast [2048] → [2048, 1] and its spread to two columns, the join of
  the density column with the two quotient columns, and the transpose.
-/
import proofs.«117513_j37263136260428_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«117513_j37263136260428_2_alg».proof.Proof.LibPlainDot
import proofs.«117513_j37263136260428_2_alg».proof.Proof.LibLane
import proofs.«117513_j37263136260428_2_alg».proof.Proof.LibIndexRead
import proofs.«117513_j37263136260428_2_alg».proof.Proof.LibConcatRead

noncomputable section

namespace Cert.KernelIdeal.BodyValue

open scoped BigOperators
open Idealize.ShloMosaic Idealize.ShloMosaic.ValueIdx
open Cert.KernelIdeal

/-- The weight of context point n at image point j of the tile: the exponential of the four-term contraction. -/
def blockWeight (v0 : Vec Ideal S2048x4 .f32) (v2 : Vec Ideal S1x4x1024 .f32) (j : Fin 2048) (n : Fin 1024) : EReal :=
  Ideal.exp (∑ k : Fin 4, v0 (ix2 j k) * v2 (ix3 0 k n))

/-- The density at image point j: the sum of the weights over the context points. -/
def blockDensity (v0 : Vec Ideal S2048x4 .f32) (v2 : Vec Ideal S1x4x1024 .f32) (j : Fin 2048) : EReal :=
  ∑ n : Fin 1024, blockWeight v0 v2 j n

/-- The weighted sum of feature channel c at image point j. -/
def blockFeature (v0 : Vec Ideal S2048x4 .f32) (v2 : Vec Ideal S1x4x1024 .f32) (v4 : Vec Ideal S1x1024x2 .bf16)
    (j : Fin 2048) (c : Fin 2) : EReal :=
  ∑ n : Fin 1024, blockWeight v0 v2 j n * v4 (ix3 0 n c)

/-- The exponential of the first product, at (j, n), is the weight. -/
theorem weight_apply (v0 : FVec Ideal S2048x4 .f32) (v2 : FVec Ideal S1x4x1024 .f32)
    (h1 : S2048x4.ShapeCasts S2048x4) (h2 : S1x4x1024.ShapeCasts S4x1024) (j : Fin 2048) (n : Fin 1024) :
    exp (F := Ideal) (matmul dot_S2048x4_S4x1024_S2048x1024_1_0_0_1_n_n (some .fp32) (shapeCast S2048x4 v0 h1)
      (shapeCast S4x1024 v2 h2) (constant S2048x1024 .f32 0x00000000#32)) (ix2 j n) = blockWeight v0 v2 j n := by
  unfold blockWeight
  refine congrArg Ideal.exp ?_
  refine (PlainDot.matmul_plain dot_S2048x4_S4x1024_S2048x1024_1_0_0_1_n_n rfl (some .fp32) _ _ j n).trans ?_
  refine Finset.sum_congr rfl fun k _ => ?_
  rw [shapeCast_self, shapeCast_1ab_ab_apply]

/-- The density column at (j, u): the lane sum of the weights of row j, kept as a column. -/
theorem density_apply (v0 : FVec Ideal S2048x4 .f32) (v2 : FVec Ideal S1x4x1024 .f32)
    (h1 : S2048x4.ShapeCasts S2048x4) (h2 : S1x4x1024.ShapeCasts S4x1024) (hr : S2048x1024.Reduces [1] S2048)
    (hφ : FKind.Formats .f32) (hacc : (0x00000000#32 : BitVec 32) = 0x00000000#32) (hc : S2048.ShapeCasts S2048x1)
    (j : Fin 2048) (u : Fin 1) :
    shapeCast S2048x1 (multiReduction (F := Ideal) .add [1] S2048
      (exp (matmul dot_S2048x4_S4x1024_S2048x1024_1_0_0_1_n_n (some .fp32) (shapeCast S2048x4 v0 h1)
        (shapeCast S4x1024 v2 h2) (constant S2048x1024 .f32 0x00000000#32))) 0x00000000#32 hr hφ hacc) hc (ix2 j u)
      = blockDensity v0 v2 j := by
  refine (RowRead.shapeCast_a_a1_apply _ hc j u).trans ?_
  refine (Cert.LibLane.laneSum_apply _ hr hφ hacc j).trans ?_
  exact Finset.sum_congr rfl fun n _ => weight_apply v0 v2 h1 h2 j n

/-- The second product at (j, c): the weights of row j against feature channel c. -/
theorem feature_apply (v0 : FVec Ideal S2048x4 .f32) (v2 : FVec Ideal S1x4x1024 .f32) (v4 : FVec Ideal S1x1024x2 .bf16)
    (h1 : S2048x4.ShapeCasts S2048x4) (h2 : S1x4x1024.ShapeCasts S4x1024) (ht : FTy.bits .bf16 < FTy.bits .f32)
    (h5 : S1x1024x2.ShapeCasts S1024x2) (j : Fin 2048) (c : Fin 2) :
    matmul (F := Ideal) dot_S2048x1024_S1024x2_S2048x2_1_0_0_1_n_n none
      (truncf .bf16 (exp (matmul dot_S2048x4_S4x1024_S2048x1024_1_0_0_1_n_n (some .fp32) (shapeCast S2048x4 v0 h1)
        (shapeCast S4x1024 v2 h2) (constant S2048x1024 .f32 0x00000000#32))) ht)
      (shapeCast S1024x2 v4 h5) (constant S2048x2 .f32 0x00000000#32) (ix2 j c) = blockFeature v0 v2 v4 j c := by
  refine (PlainDot.matmul_plain dot_S2048x1024_S1024x2_S2048x2_1_0_0_1_n_n rfl none _ _ j c).trans ?_
  refine Finset.sum_congr rfl fun n _ => ?_
  rw [shapeCast_1ab_ab_apply]
  exact congrArg (· * v4 (ix3 0 n c)) (weight_apply v0 v2 h1 h2 j n)

/-- A quotient column at (j, c): the weighted feature sum divided by the density spread over the two columns. -/
theorem quotient_apply (v0 : FVec Ideal S2048x4 .f32) (v2 : FVec Ideal S1x4x1024 .f32) (v4 : FVec Ideal S1x1024x2 .bf16)
    (h1 : S2048x4.ShapeCasts S2048x4) (h2 : S1x4x1024.ShapeCasts S4x1024) (hr : S2048x1024.Reduces [1] S2048)
    (hφ : FKind.Formats .f32) (hacc : (0x00000000#32 : BitVec 32) = 0x00000000#32) (hc : S2048.ShapeCasts S2048x1)
    (ht : FTy.bits .bf16 < FTy.bits .f32) (h5 : S1x1024x2.ShapeCasts S1024x2) (hb : S2048x1.Broadcasts S2048x2)
    (j : Fin 2048) (c : Fin 2) :
    divf (F := Ideal)
      (matmul dot_S2048x1024_S1024x2_S2048x2_1_0_0_1_n_n none
        (truncf .bf16 (exp (matmul dot_S2048x4_S4x1024_S2048x1024_1_0_0_1_n_n (some .fp32) (shapeCast S2048x4 v0 h1)
          (shapeCast S4x1024 v2 h2) (constant S2048x1024 .f32 0x00000000#32))) ht)
        (shapeCast S1024x2 v4 h5) (constant S2048x2 .f32 0x00000000#32))
      (broadcastTo S2048x2 (shapeCast S2048x1 (multiReduction (F := Ideal) .add [1] S2048
        (exp (matmul dot_S2048x4_S4x1024_S2048x1024_1_0_0_1_n_n (some .fp32) (shapeCast S2048x4 v0 h1)
          (shapeCast S4x1024 v2 h2) (constant S2048x1024 .f32 0x00000000#32))) 0x00000000#32 hr hφ hacc) hc) hb)
      (ix2 j c) = Ideal.div (blockFeature v0 v2 v4 j c) (blockDensity v0 v2 j) := by
  refine (divf_apply _ _ _).trans ?_
  refine congrArg₂ Ideal.div (feature_apply v0 v2 v4 h1 h2 ht h5 j c) ?_
  refine (RowRead.broadcastTo_a1_ab_apply _ hb j c).trans ?_
  exact density_apply v0 v2 h1 h2 hr hφ hacc hc j 0

/-- Row 0 of the stored block at image point j is the density. -/
theorem pay_read_density (v0 : Vec Ideal S2048x4 .f32) (v2 : Vec Ideal S1x4x1024 .f32) (v4 : Vec Ideal S1x1024x2 .bf16)
    (j : Fin 2048) :
    Gen.k0_pay1 (F := Ideal) v0 v2 v4 (ix3 0 (⟨0, by omega⟩ : Fin 3) j) = blockDensity v0 v2 j := by
  unfold Gen.k0_pay1
  refine (shapeCast_ab_1ab_apply _ _ 0 (⟨0, by omega⟩ : Fin 3) j).trans ?_
  refine (transpose_ix2_apply _ _ (⟨0, by omega⟩ : Fin 3) j).trans ?_
  refine (Cert.LibConcatRead.concat_cols_apply_left _ _ _ j (⟨0, by omega⟩ : Fin 3) Nat.one_pos).trans ?_
  exact density_apply v0 v2 _ _ _ _ _ _ j _

/-- Row 1 of the stored block at image point j is feature channel 0 over the density. -/
theorem pay_read_feature0 (v0 : Vec Ideal S2048x4 .f32) (v2 : Vec Ideal S1x4x1024 .f32) (v4 : Vec Ideal S1x1024x2 .bf16)
    (j : Fin 2048) :
    Gen.k0_pay1 (F := Ideal) v0 v2 v4 (ix3 0 (⟨1, by omega⟩ : Fin 3) j)
      = Ideal.div (blockFeature v0 v2 v4 j 0) (blockDensity v0 v2 j) := by
  unfold Gen.k0_pay1
  refine (shapeCast_ab_1ab_apply _ _ 0 (⟨1, by omega⟩ : Fin 3) j).trans ?_
  refine (transpose_ix2_apply _ _ (⟨1, by omega⟩ : Fin 3) j).trans ?_
  refine (Cert.LibConcatRead.concat_cols_apply_right _ _ _ j (⟨1, by omega⟩ : Fin 3) (Nat.le_refl 1) (by decide)).trans ?_
  exact quotient_apply v0 v2 v4 _ _ _ _ _ _ _ _ _ j 0

/-- Row 2 of the stored block at image point j is feature channel 1 over the density. -/
theorem pay_read_feature1 (v0 : Vec Ideal S2048x4 .f32) (v2 : Vec Ideal S1x4x1024 .f32) (v4 : Vec Ideal S1x1024x2 .bf16)
    (j : Fin 2048) :
    Gen.k0_pay1 (F := Ideal) v0 v2 v4 (ix3 0 (⟨2, by omega⟩ : Fin 3) j)
      = Ideal.div (blockFeature v0 v2 v4 j 1) (blockDensity v0 v2 j) := by
  unfold Gen.k0_pay1
  refine (shapeCast_ab_1ab_apply _ _ 0 (⟨2, by omega⟩ : Fin 3) j).trans ?_
  refine (transpose_ix2_apply _ _ (⟨2, by omega⟩ : Fin 3) j).trans ?_
  refine (Cert.LibConcatRead.concat_cols_apply_right _ _ _ j (⟨2, by omega⟩ : Fin 3) (by decide) (by decide)).trans ?_
  exact quotient_apply v0 v2 v4 _ _ _ _ _ _ _ _ _ j 1

/-- The stored block at image point j: the density, and the two feature channels over the density. -/
theorem pay_read (v0 : Vec Ideal S2048x4 .f32) (v2 : Vec Ideal S1x4x1024 .f32) (v4 : Vec Ideal S1x1024x2 .bf16)
    (j : Fin 2048) :
    Gen.k0_pay1 (F := Ideal) v0 v2 v4 (ix3 0 (⟨0, by omega⟩ : Fin 3) j) = blockDensity v0 v2 j
  ∧ Gen.k0_pay1 (F := Ideal) v0 v2 v4 (ix3 0 (⟨1, by omega⟩ : Fin 3) j)
      = Ideal.div (blockFeature v0 v2 v4 j 0) (blockDensity v0 v2 j)
  ∧ Gen.k0_pay1 (F := Ideal) v0 v2 v4 (ix3 0 (⟨2, by omega⟩ : Fin 3) j)
      = Ideal.div (blockFeature v0 v2 v4 j 1) (blockDensity v0 v2 j) :=
  ⟨pay_read_density v0 v2 v4 j, pay_read_feature0 v0 v2 v4 j, pay_read_feature1 v0 v2 v4 j⟩

end Cert.KernelIdeal.BodyValue

end
-- ==== Proof.LibChannelRead.lean ====
/-
  One channel of a rank-three block read at coordinates. A block of shape [A, B, C] keeps C channels per cell
  (p, q). Loading the unit-stride rectangle of sizes [A, B, 1] at offsets [0, 0, c] takes channel c of every cell,
  and dropping the trailing unit axis by a shape cast gives an [A, B] array: its entry (p, q) is the block's
  entry (p, q, c). The row-major position of (p, q, 0) in [A, B, 1] is that of (p, q) in [A, B], which is all
  the cast needs.
-/
import Idealize.ShloMosaic.Lib.Pipeline.Value
import Idealize.ShloMosaic.Lib.Pipeline.FrameBody
import Idealize.ShloMosaic.Lib.ValueIdx

namespace Idealize.ShloMosaic.ChannelRead

open Idealize.ShloMosaic Idealize.ShloMosaic.ValueIdx

variable {α : Type}

/-- An [A, B, 1] array with its trailing unit axis dropped reads, at (p, q), the operand at (p, q, 0). -/
theorem shapeCast_ab1_ab_apply {A B : ℕ} (x : (⟨3, ![A, B, 1]⟩ : Shape).Idx → α)
    (h : (⟨3, ![A, B, 1]⟩ : Shape).ShapeCasts ⟨2, ![A, B]⟩) (p : Fin A) (q : Fin B) :
    shapeCast ⟨2, ![A, B]⟩ x h (ix2 p q) = x (ix3 p q (0 : Fin 1)) :=
  shapeCast_apply x h _ _ (by
    rw [Shape.rowMajor_val_three, Shape.rowMajor_val_two]
    show (p.val * B + q.val) * 1 + 0 = p.val * B + q.val
    rw [Nat.mul_one, Nat.add_zero])

/-- Channel c of an [A, B, C] block, loaded as an [A, B, 1] rectangle, reads at (p, q, u) the block at (p, q, c). -/
theorem ld_channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (p : Fin A) (q : Fin B) (u : Fin 1) :
    View.ld X (Rect.unit (s := ⟨3, ![A, B, C]⟩) ![0, 0, c] ![A, B, 1] inb) (ix3 p q u)
      = X (ix3 p q ⟨c, Nat.lt_of_succ_le (inb 2)⟩) := by
  show X ((Rect.unit (s := ⟨3, ![A, B, C]⟩) ![0, 0, c] ![A, B, 1] inb).idx (ix3 p q u)) = _
  refine congrArg X (funext fun d => Fin.ext ?_)
  match d with
  | ⟨0, _⟩ => show 0 + 1 * p.val = p.val; rw [Nat.one_mul, Nat.zero_add]
  | ⟨1, _⟩ => show 0 + 1 * q.val = q.val; rw [Nat.one_mul, Nat.zero_add]
  | ⟨2, _⟩ => show c + 1 * u.val = c; have := u.isLt; omega

/-- The two together: channel c of the block as an [A, B] array, at (p, q), is the block at (p, q, c). -/
theorem channel_apply {Val : EltTy → Type} {e : EltTy} {A B C : ℕ} (X : (⟨3, ![A, B, C]⟩ : Shape).Idx → Val e) (c : ℕ)
    (inb : ∀ d, (![0, 0, c] : Fin 3 → ℕ) d + (![A, B, 1] : Fin 3 → ℕ) d ≤ (⟨3, ![A, B, C]⟩ : Shape).size d)
    (h : (⟨3, ![A, B, 1]⟩ : Shape).ShapeCasts ⟨2, ![A, B]⟩) (p : Fin A) (q : Fin B) :
    shapeCast ⟨2, ![A, B]⟩ (View.ld X (Rect.unit (s := ⟨3, ![A, B, C]⟩) ![0, 0, c] ![A, B, 1] inb)) h (ix2 p q)
      = X (ix3 p q ⟨c, Nat.lt_of_succ_le (inb 2)⟩) :=
  (shapeCast_ab1_ab_apply _ h p q).trans (ld_channel_apply X c inb p q 0)

end Idealize.ShloMosaic.ChannelRead
-- ==== Proof.LibStack4Read.lean ====
/-
  Four-operand joins, and the moves around them, read at an index written by coordinates.

  A host program that stacks four vectors into a matrix (or four matrices into a rank-three array) writes each as
  an array with a unit axis and joins the four along that axis.  Read at coordinate `k` of the joined axis the result is
  the `k`-th operand at the unit coordinate: stated here for four `[a, 1]` columns joined into `[a, 4]` and for four
  `[a, 1, c]` slabs joined into `[a, 4, c]`, one lemma per operand.  With them: an `[a, 1]` column with its unit axis
  dropped, one column of a matrix sliced out as `[A, 1]`, one channel of a rank-three block sliced out as `[A, B, 1]`,
  and an `[a, c]` matrix given a middle unit axis by the host's broadcast_in_dim with dimensions [0, 2].
-/
import Idealize.ShloMosaic.Lib.Pipeline.Value
import Idealize.ShloMosaic.Lib.ValueIdx
import Idealize.ShloMosaic.Lib.ValueLayout

namespace Idealize.ShloMosaic.Stack4Read

open Idealize.ShloMosaic

/-! ## Four columns joined into a matrix -/

section Index

open ValueIdx

variable {α : Type}

/-- An `[a, 1]` column with its unit axis dropped reads, at `p`, the column at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Column `o` of an `[A, B]` matrix, sliced out as an `[A, 1]` column, reads at `(p, u)` the matrix at `(p, o)`. -/
theorem slice2_col_apply {A B : ℕ} (o : ℕ) (X : (⟨2, ![A, B]⟩ : Shape).Idx → α)
    (h : (⟨2, ![A, B]⟩ : Shape).Slices ![0, o] ⟨2, ![A, 1]⟩) (p : Fin A) (u : Fin 1) (ho : o < B) :
    extractStridedSlice ⟨2, ![A, 1]⟩ ![0, o] X h (ix2 p u) = X (ix2 p ⟨o, ho⟩) := by
  refine extractStridedSlice_apply ![0, o] X h (ix2 p u) _ fun d => ?_
  match d with
  | ⟨0, _⟩ => show p.val = 0 + p.val; omega
  | ⟨1, _⟩ => show o = o + u.val; have := u.isLt; omega

/-- Four `[a, 1]` columns joined along the columns: column `k` of the result is the `k`-th operand. -/
theorem concat4_cols_apply0 {a : ℕ} (x0 x1 x2 x3 : (⟨2, ![a, 1]⟩ : Shape).Idx → α)
    (h : Shape.Concatenates [⟨2, ![a, 1]⟩, ⟨2, ![a, 1]⟩, ⟨2, ![a, 1]⟩, ⟨2, ![a, 1]⟩] ⟨2, ![a, 4]⟩ 1) (g : Fin a)
    (k : Fin 4) (hk : k.val = 0) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 g k)
      = x0 (ix2 g (0 : Fin 1)) :=
  concatenate_apply_piece 1 [⟨⟨2, ![a, 1]⟩, x0⟩, ⟨⟨2, ![a, 1]⟩, x1⟩, ⟨⟨2, ![a, 1]⟩, x2⟩, ⟨⟨2, ![a, 1]⟩, x3⟩] h (ix2 g k) 0
    (by show 0 < 4; omega) ⟨2, ![a, 1]⟩ x0 rfl rfl 0 rfl (ix2 g (0 : Fin 1))
    (fun b hb => by match b with | ⟨0, _⟩ => rfl | ⟨1, _⟩ => exact absurd rfl hb)
    (by show 0 + 0 = k.val; omega)
theorem concat4_cols_apply1 {a : ℕ} (x0 x1 x2 x3 : (⟨2, ![a, 1]⟩ : Shape).Idx → α)
    (h : Shape.Concatenates [⟨2, ![a, 1]⟩, ⟨2, ![a, 1]⟩, ⟨2, ![a, 1]⟩, ⟨2, ![a, 1]⟩] ⟨2, ![a, 4]⟩ 1) (g : Fin a)
    (k : Fin 4) (hk : k.val = 1) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 g k)
      = x1 (ix2 g (0 : Fin 1)) :=
  concatenate_apply_piece 1 [⟨⟨2, ![a, 1]⟩, x0⟩, ⟨⟨2, ![a, 1]⟩, x1⟩, ⟨⟨2, ![a, 1]⟩, x2⟩, ⟨⟨2, ![a, 1]⟩, x3⟩] h (ix2 g k) 1
    (by show 1 < 4; omega) ⟨2, ![a, 1]⟩ x1 rfl rfl 1 rfl (ix2 g (0 : Fin 1))
    (fun b hb => by match b with | ⟨0, _⟩ => rfl | ⟨1, _⟩ => exact absurd rfl hb)
    (by show 1 + 0 = k.val; omega)
theorem concat4_cols_apply2 {a : ℕ} (x0 x1 x2 x3 : (⟨2, ![a, 1]⟩ : Shape).Idx → α)
    (h : Shape.Concatenates [⟨2, ![a, 1]⟩, ⟨2, ![a, 1]⟩, ⟨2, ![a, 1]⟩, ⟨2, ![a, 1]⟩] ⟨2, ![a, 4]⟩ 1) (g : Fin a)
    (k : Fin 4) (hk : k.val = 2) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 g k)
      = x2 (ix2 g (0 : Fin 1)) :=
  concatenate_apply_piece 1 [⟨⟨2, ![a, 1]⟩, x0⟩, ⟨⟨2, ![a, 1]⟩, x1⟩, ⟨⟨2, ![a, 1]⟩, x2⟩, ⟨⟨2, ![a, 1]⟩, x3⟩] h (ix2 g k) 2
    (by show 2 < 4; omega) ⟨2, ![a, 1]⟩ x2 rfl rfl 2 rfl (ix2 g (0 : Fin 1))
    (fun b hb => by match b with | ⟨0, _⟩ => rfl | ⟨1, _⟩ => exact absurd rfl hb)
    (by show 2 + 0 = k.val; omega)
theorem concat4_cols_apply3 {a : ℕ} (x0 x1 x2 x3 : (⟨2, ![a, 1]⟩ : Shape).Idx → α)
    (h : Shape.Concatenates [⟨2, ![a, 1]⟩, ⟨2, ![a, 1]⟩, ⟨2, ![a, 1]⟩, ⟨2, ![a, 1]⟩] ⟨2, ![a, 4]⟩ 1) (g : Fin a)
    (k : Fin 4) (hk : k.val = 3) :
    concatenate ⟨2, ![a, 4]⟩ 1 [⟨⟨2, ![a, 1]⟩, x0⟩, ⟨⟨2, ![a, 1]⟩, x1⟩, ⟨⟨2, ![a, 1]⟩, x2⟩, ⟨⟨2, ![a, 1]⟩, x3⟩] h (ix2 g k)
      = x3 (ix2 g (0 : Fin 1)) :=
  concatenate_apply_piece 1 [⟨⟨2, ![a, 1]⟩, x0⟩, ⟨⟨2, ![a, 1]⟩, x1⟩, ⟨⟨2, ![a, 1]⟩, x2⟩, ⟨⟨2, ![a, 1]⟩, x3⟩] h (ix2 g k) 3
    (by show 3 < 4; omega) ⟨2, ![a, 1]⟩ x3 rfl rfl 3 rfl (ix2 g (0 : Fin 1))
    (fun b hb => by match b with | ⟨0, _⟩ => rfl | ⟨1, _⟩ => exact absurd rfl hb)
    (by show 3 + 0 = k.val; omega)

end Index

/-! ## Four slabs joined along a middle axis -/

section Index3

open ValueIdx

variable {α : Type}

/-- Channel `o` of an `[A, B, C]` block, sliced out as `[A, B, 1]`, reads at `(p, q, u)` the block at `(p, q, o)`. -/
theorem slice3_last_apply {A B C : ℕ} (o : ℕ) (X : (⟨3, ![A, B, C]⟩ : Shape).Idx → α)
    (h : (⟨3, ![A, B, C]⟩ : Shape).Slices ![0, 0, o] ⟨3, ![A, B, 1]⟩) (p : Fin A) (q : Fin B) (u : Fin 1) (ho : o < C) :
    extractStridedSlice ⟨3, ![A, B, 1]⟩ ![0, 0, o] X h (ix3 p q u) = X (ix3 p q ⟨o, ho⟩) := by
  refine extractStridedSlice_apply ![0, 0, o] X h (ix3 p q u) _ fun d => ?_
  match d with
  | ⟨0, _⟩ => show p.val = 0 + p.val; omega
  | ⟨1, _⟩ => show q.val = 0 + q.val; omega
  | ⟨2, _⟩ => show o = o + u.val; have := u.isLt; omega

/-- An `[a, c]` matrix given a middle unit axis reads, at `(p, u, r)`, the matrix at `(p, r)`. -/
theorem broadcastInDim_ac_a1c_apply {a c : ℕ} (dims : Fin (⟨2, ![a, c]⟩ : Shape).rank → Fin (⟨3, ![a, 1, c]⟩ : Shape).rank)
    (h : (⟨2, ![a, c]⟩ : Shape).BroadcastsInDim ⟨3, ![a, 1, c]⟩ dims) (hd : dims = ![0, 2])
    (x : (⟨2, ![a, c]⟩ : Shape).Idx → α) (p : Fin a) (u : Fin 1) (r : Fin c) :
    broadcastInDim ⟨3, ![a, 1, c]⟩ dims h x (ix3 p u r) = x (ix2 p r) := by
  subst hd
  refine broadcastInDim_apply _ h x (ix3 p u r) (ix2 p r) fun d => ?_
  match d with
  | ⟨0, _⟩ =>
    show p.val = if a = 1 then 0 else p.val
    split
    · have := p.isLt; omega
    · rfl
  | ⟨1, _⟩ =>
    show r.val = if c = 1 then 0 else r.val
    split
    · have := r.isLt; omega
    · rfl

/-- Four `[a, 1, c]` slabs joined along the middle axis: slab `k` of the result is the `k`-th operand. -/
theorem concat4_mid_apply0 {a c : ℕ} (x0 x1 x2 x3 : (⟨3, ![a, 1, c]⟩ : Shape).Idx → α)
    (h : Shape.Concatenates [⟨3, ![a, 1, c]⟩, ⟨3, ![a, 1, c]⟩, ⟨3, ![a, 1, c]⟩, ⟨3, ![a, 1, c]⟩] ⟨3, ![a, 4, c]⟩ 1) (b : Fin a) (n : Fin c)
    (k : Fin 4) (hk : k.val = 0) :
    concatenate ⟨3, ![a, 4, c]⟩ 1 [⟨⟨3, ![a, 1, c]⟩, x0⟩, ⟨⟨3, ![a, 1, c]⟩, x1⟩, ⟨⟨3, ![a, 1, c]⟩, x2⟩, ⟨⟨3, ![a, 1, c]⟩, x3⟩] h (ix3 b k n)
      = x0 (ix3 b (0 : Fin 1) n) :=
  concatenate_apply_piece 1 [⟨⟨3, ![a, 1, c]⟩, x0⟩, ⟨⟨3, ![a, 1, c]⟩, x1⟩, ⟨⟨3, ![a, 1, c]⟩, x2⟩, ⟨⟨3, ![a, 1, c]⟩, x3⟩] h (ix3 b k n) 0
    (by show 0 < 4; omega) ⟨3, ![a, 1, c]⟩ x0 rfl rfl 0 rfl (ix3 b (0 : Fin 1) n)
    (fun d hd => by match d with | ⟨0, _⟩ => rfl | ⟨1, _⟩ => exact absurd rfl hd | ⟨2, _⟩ => rfl)
    (by show 0 + 0 = k.val; omega)
theorem concat4_mid_apply1 {a c : ℕ} (x0 x1 x2 x3 : (⟨3, ![a, 1, c]⟩ : Shape).Idx → α)
    (h : Shape.Concatenates [⟨3, ![a, 1, c]⟩, ⟨3, ![a, 1, c]⟩, ⟨3, ![a, 1, c]⟩, ⟨3, ![a, 1, c]⟩] ⟨3, ![a, 4, c]⟩ 1) (b : Fin a) (n : Fin c)
    (k : Fin 4) (hk : k.val = 1) :
    concatenate ⟨3, ![a, 4, c]⟩ 1 [⟨⟨3, ![a, 1, c]⟩, x0⟩, ⟨⟨3, ![a, 1, c]⟩, x1⟩, ⟨⟨3, ![a, 1, c]⟩, x2⟩, ⟨⟨3, ![a, 1, c]⟩, x3⟩] h (ix3 b k n)
      = x1 (ix3 b (0 : Fin 1) n) :=
  concatenate_apply_piece 1 [⟨⟨3, ![a, 1, c]⟩, x0⟩, ⟨⟨3, ![a, 1, c]⟩, x1⟩, ⟨⟨3, ![a, 1, c]⟩, x2⟩, ⟨⟨3, ![a, 1, c]⟩, x3⟩] h (ix3 b k n) 1
    (by show 1 < 4; omega) ⟨3, ![a, 1, c]⟩ x1 rfl rfl 1 rfl (ix3 b (0 : Fin 1) n)
    (fun d hd => by match d with | ⟨0, _⟩ => rfl | ⟨1, _⟩ => exact absurd rfl hd | ⟨2, _⟩ => rfl)
    (by show 1 + 0 = k.val; omega)
theorem concat4_mid_apply2 {a c : ℕ} (x0 x1 x2 x3 : (⟨3, ![a, 1, c]⟩ : Shape).Idx → α)
    (h : Shape.Concatenates [⟨3, ![a, 1, c]⟩, ⟨3, ![a, 1, c]⟩, ⟨3, ![a, 1, c]⟩, ⟨3, ![a, 1, c]⟩] ⟨3, ![a, 4, c]⟩ 1) (b : Fin a) (n : Fin c)
    (k : Fin 4) (hk : k.val = 2) :
    concatenate ⟨3, ![a, 4, c]⟩ 1 [⟨⟨3, ![a, 1, c]⟩, x0⟩, ⟨⟨3, ![a, 1, c]⟩, x1⟩, ⟨⟨3, ![a, 1, c]⟩, x2⟩, ⟨⟨3, ![a, 1, c]⟩, x3⟩] h (ix3 b k n)
      = x2 (ix3 b (0 : Fin 1) n) :=
  concatenate_apply_piece 1 [⟨⟨3, ![a, 1, c]⟩, x0⟩, ⟨⟨3, ![a, 1, c]⟩, x1⟩, ⟨⟨3, ![a, 1, c]⟩, x2⟩, ⟨⟨3, ![a, 1, c]⟩, x3⟩] h (ix3 b k n) 2
    (by show 2 < 4; omega) ⟨3, ![a, 1, c]⟩ x2 rfl rfl 2 rfl (ix3 b (0 : Fin 1) n)
    (fun d hd => by match d with | ⟨0, _⟩ => rfl | ⟨1, _⟩ => exact absurd rfl hd | ⟨2, _⟩ => rfl)
    (by show 2 + 0 = k.val; omega)
theorem concat4_mid_apply3 {a c : ℕ} (x0 x1 x2 x3 : (⟨3, ![a, 1, c]⟩ : Shape).Idx → α)
    (h : Shape.Concatenates [⟨3, ![a, 1, c]⟩, ⟨3, ![a, 1, c]⟩, ⟨3, ![a, 1, c]⟩, ⟨3, ![a, 1, c]⟩] ⟨3, ![a, 4, c]⟩ 1) (b : Fin a) (n : Fin c)
    (k : Fin 4) (hk : k.val = 3) :
    concatenate ⟨3, ![a, 4, c]⟩ 1 [⟨⟨3, ![a, 1, c]⟩, x0⟩, ⟨⟨3, ![a, 1, c]⟩, x1⟩, ⟨⟨3, ![a, 1, c]⟩, x2⟩, ⟨⟨3, ![a, 1, c]⟩, x3⟩] h (ix3 b k n)
      = x3 (ix3 b (0 : Fin 1) n) :=
  concatenate_apply_piece 1 [⟨⟨3, ![a, 1, c]⟩, x0⟩, ⟨⟨3, ![a, 1, c]⟩, x1⟩, ⟨⟨3, ![a, 1, c]⟩, x2⟩, ⟨⟨3, ![a, 1, c]⟩, x3⟩] h (ix3 b k n) 3
    (by show 3 < 4; omega) ⟨3, ![a, 1, c]⟩ x3 rfl rfl 3 rfl (ix3 b (0 : Fin 1) n)
    (fun d hd => by match d with | ⟨0, _⟩ => rfl | ⟨1, _⟩ => exact absurd rfl hd | ⟨2, _⟩ => rfl)
    (by show 3 + 0 = k.val; omega)

end Index3

end Idealize.ShloMosaic.Stack4Read
-- ==== Proof.HostRead.lean ====
/-
  The three arrays the host lines of the kernel program hand to its region, read at an index.

  With `s = 1 / ((2·l)·l)`, `l = exp (min 5 (max (-5) ll))`: the image-side array holds at row `g` the four numbers
  `2s·P g 0, 2s·P g 1, -s·|P g|², 1`; the context-side array holds at batch `b`, column `n` the four numbers
  `X b n 0, X b n 1, 1, -s·|X b n|²`; the feature array is the feature argument (a change of float format is the
  identity on the extended reals).

  Each array's contents are first written as the term the operations compose, with the scale and the columns named;
  that term is then read at an index: a four-operand join along an axis whose operands have extent one there takes
  operand `k` at coordinate `k`; a broadcast, a slice and a cast that adds or drops a unit axis re-index; the host's sum
  over the last axis of extent two is the zero word plus the two squares.
-/
import proofs.«117513_j37263136260428_2_alg».proof.Proof.Gen.KernelIdeal.Launch
import proofs.«117513_j37263136260428_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«117513_j37263136260428_2_alg».proof.Proof.LibIndexRead
import proofs.«117513_j37263136260428_2_alg».proof.Proof.LibChannelRead
import proofs.«117513_j37263136260428_2_alg».proof.Proof.LibStack4Read

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.Stack4Read

abbrev entry (m : (ℓ : Loc nD τ sig) → Buf (Elt Ideal) ℓ) (c : Dev nD) : Valuation τ sig (Elt Ideal) :=
  StableHlo.after (List.flatten [Gen.hostOps0, Gen.hostOps0_1, Gen.hostOps0_2]) (fun b => m (c, b))

abbrev Xc (m : (ℓ : Loc nD τ sig) → Buf (Elt Ideal) ℓ) (c : Dev nD) : Fin 8 → Fin 1024 → Fin 2 → EReal :=
  fun b n d => m ((c.tc : Thread nD τ).loc main_arg0) (ValueIdx.ix3 b n d)
abbrev Yc (m : (ℓ : Loc nD τ sig) → Buf (Elt Ideal) ℓ) (c : Dev nD) : Fin 8 → Fin 1024 → Fin 2 → EReal :=
  fun b n d => m ((c.tc : Thread nD τ).loc main_arg1) (ValueIdx.ix3 b n d)
abbrev Pc (m : (ℓ : Loc nD τ sig) → Buf (Elt Ideal) ℓ) (c : Dev nD) : Fin 16384 → Fin 2 → EReal :=
  fun g d => m ((c.tc : Thread nD τ).loc main_arg2) (ValueIdx.ix2 g d)
abbrev llc (m : (ℓ : Loc nD τ sig) → Buf (Elt Ideal) ℓ) (c : Dev nD) : EReal :=
  m ((c.tc : Thread nD τ).loc main_arg3) (ValueIdx.ix1 0)

/-- The feature array handed to the region is the feature argument, its change of float format the identity on
    the extended reals. -/
theorem feat_e (m : (ℓ : Loc nD τ sig) → Buf (Elt Ideal) ℓ) (c : Dev nD) :
    (entry m c (Proc.devRef .tc main_v42) : S8x1024x2.Idx → EReal)
      = truncf (F := Ideal) .bf16 (m ((c.tc : Thread nD τ).loc main_arg1)) bitsLt_bf16_f32 := by
  simp only [entry, Gen.hostOps0, Gen.hostOps0_1, Gen.hostOps0_2, List.flatten_cons, List.flatten_nil, List.append_nil, List.cons_append, List.nil_append]
  after_results

theorem feat_read (m : (ℓ : Loc nD τ sig) → Buf (Elt Ideal) ℓ) (c : Dev nD) (b : Fin 8) (n : Fin 1024) (d : Fin 2) :
    (entry m c (Proc.devRef .tc main_v42) : S8x1024x2.Idx → EReal) (ValueIdx.ix3 b n d) = Yc m c b n d := by
  rw [feat_e]; rfl

/-! ## The scalar chain and the columns, as the host operations compose them -/

/-- The length scale as the operations compose it: the exponential of the clamped logarithm. -/
def lTerm (x3 : (⟨S1, .f32⟩ : BufTy).Contents (Elt Ideal)) : (⟨S_, .f32⟩ : BufTy).Contents (Elt Ideal) :=
  Host.exp (F := Ideal) (minimumf (F := Ideal) (id (constant (F := Ideal) S_ .f32 0x40A00000#32))
    (maximumf (F := Ideal) (id (constant (F := Ideal) S_ .f32 0xC0A00000#32)) (shapeCast _ x3 shapeCasts_S1_S_)))

/-- The scale `1 / ((2·l)·l)` as the operations compose it. -/
def sTerm (x3 : (⟨S1, .f32⟩ : BufTy).Contents (Elt Ideal)) : (⟨S_, .f32⟩ : BufTy).Contents (Elt Ideal) :=
  Host.divf (F := Ideal) (constant (F := Ideal) S_ .f32 0x3F800000#32)
    (mulf (F := Ideal) (mulf (F := Ideal) (constant (F := Ideal) S_ .f32 0x40000000#32) (lTerm x3)) (lTerm x3))

/-- Column `d` of the image points times `2s`, as a vector over the image points. -/
def lcol0 (x2 : (⟨S16384x2, .f32⟩ : BufTy).Contents (Elt Ideal)) (x3 : (⟨S1, .f32⟩ : BufTy).Contents (Elt Ideal)) :
    (⟨S16384, .f32⟩ : BufTy).Contents (Elt Ideal) :=
  mulf (F := Ideal) (broadcastInDim S16384 ![] bcast_S_S16384 (mulf (F := Ideal) (constant (F := Ideal) S_ .f32 0x40000000#32) (sTerm x3)))
    (shapeCast _ (extractStridedSlice S16384x1 ![0, 0] x2 slices_S16384x2_S16384x1_0_0) shapeCasts_S16384x1_S16384)
def lcol1 (x2 : (⟨S16384x2, .f32⟩ : BufTy).Contents (Elt Ideal)) (x3 : (⟨S1, .f32⟩ : BufTy).Contents (Elt Ideal)) :
    (⟨S16384, .f32⟩ : BufTy).Contents (Elt Ideal) :=
  mulf (F := Ideal) (broadcastInDim S16384 ![] bcast_S_S16384 (mulf (F := Ideal) (constant (F := Ideal) S_ .f32 0x40000000#32) (sTerm x3)))
    (shapeCast _ (extractStridedSlice S16384x1 ![0, 1] x2 slices_S16384x2_S16384x1_0_1) shapeCasts_S16384x1_S16384)
/-- The squared norm of each image point times `-s`. -/
def lcol2 (x2 : (⟨S16384x2, .f32⟩ : BufTy).Contents (Elt Ideal)) (x3 : (⟨S1, .f32⟩ : BufTy).Contents (Elt Ideal)) :
    (⟨S16384, .f32⟩ : BufTy).Contents (Elt Ideal) :=
  mulf (F := Ideal) (broadcastInDim S16384 ![] bcast_S_S16384 (Host.negf (F := Ideal) (sTerm x3)))
    (Host.reduceAdd (F := Ideal) (mulf (F := Ideal) x2 x2) (constant (F := Ideal) S_ .f32 0x00000000#32) reducesTo_S16384x2_S16384_d1 h_S_)
/-- The column of ones. -/
def lcol3 : (⟨S16384, .f32⟩ : BufTy).Contents (Elt Ideal) :=
  broadcastInDim S16384 ![] bcast_S_S16384 (constant (F := Ideal) S_ .f32 0x3F800000#32)

/-- The image-side array as the operations compose it: four columns joined. -/
def leftTerm (x2 : (⟨S16384x2, .f32⟩ : BufTy).Contents (Elt Ideal)) (x3 : (⟨S1, .f32⟩ : BufTy).Contents (Elt Ideal)) :
    (⟨S16384x4, .f32⟩ : BufTy).Contents (Elt Ideal) :=
  concatenate S16384x4 1
    [⟨S16384x1, broadcastInDim S16384x1 ![0] bcast_S16384_S16384x1_0 (lcol0 x2 x3)⟩,
     ⟨S16384x1, broadcastInDim S16384x1 ![0] bcast_S16384_S16384x1_0 (lcol1 x2 x3)⟩,
     ⟨S16384x1, broadcastInDim S16384x1 ![0] bcast_S16384_S16384x1_0 (lcol2 x2 x3)⟩,
     ⟨S16384x1, broadcastInDim S16384x1 ![0] bcast_S16384_S16384x1_0 lcol3⟩]
    concatenates_S16384x1_S16384x1_S16384x1_S16384x1_S16384x4_d1

set_option maxHeartbeats 2000000 in
theorem left_e (m : (ℓ : Loc nD τ sig) → Buf (Elt Ideal) ℓ) (c : Dev nD) :
    (entry m c (Proc.devRef .tc main_v26) : S16384x4.Idx → EReal)
      = leftTerm (m ((c.tc : Thread nD τ).loc main_arg2)) (m ((c.tc : Thread nD τ).loc main_arg3)) := by
  simp only [entry, Gen.hostOps0, Gen.hostOps0_1, Gen.hostOps0_2, List.flatten_cons, List.flatten_nil, List.append_nil, List.cons_append, List.nil_append]
  after_results
  rfl

/-! ## The scalar chain and the columns read at an index -/

open ValueIdx in
/-- The scale as the operations compose it is the specification's scale of the one entry of the length-scale argument. -/
theorem sTerm_apply (x3 : (⟨S1, .f32⟩ : BufTy).Contents (Elt Ideal)) (i : S_.Idx) :
    sTerm x3 i = Cert.RbfSpec.scale (x3 (ix1 0)) := by
  have e : shapeCast S_ x3 shapeCasts_S1_S_ i = x3 (ix1 0) :=
    shapeCast_apply x3 shapeCasts_S1_S_ i (ix1 0) (by
      have hi : (S_.rowMajor i).val < 1 := (S_.rowMajor i).isLt
      rw [Shape.rowMajor_val_one]
      show 0 = (S_.rowMajor i).val
      omega)
  show Ideal.div (Ideal.ofBits .f32 0x3F800000#32)
      ((Ideal.ofBits .f32 0x40000000#32
          * Ideal.exp (min (Ideal.ofBits .f32 0x40A00000#32) (max (Ideal.ofBits .f32 0xC0A00000#32) (shapeCast S_ x3 shapeCasts_S1_S_ i))))
        * Ideal.exp (min (Ideal.ofBits .f32 0x40A00000#32) (max (Ideal.ofBits .f32 0xC0A00000#32) (shapeCast S_ x3 shapeCasts_S1_S_ i)))) = _
  rw [e]
  rfl

open ValueIdx in
theorem lcol0_apply (x2 : (⟨S16384x2, .f32⟩ : BufTy).Contents (Elt Ideal)) (x3 : (⟨S1, .f32⟩ : BufTy).Contents (Elt Ideal)) (g : Fin 16384) :
    lcol0 x2 x3 (ix1 g) = (Cert.RbfSpec.wTwo * Cert.RbfSpec.scale (x3 (ix1 0))) * x2 (ix2 g 0) := by
  unfold lcol0
  rw [mulf_apply, RowRead.broadcastInDim_scalar_apply, mulf_apply, sTerm_apply, shapeCast_a1_a_apply,
    slice2_col_apply 0 x2 _ g 0 (by decide)]
  rfl

open ValueIdx in
theorem lcol1_apply (x2 : (⟨S16384x2, .f32⟩ : BufTy).Contents (Elt Ideal)) (x3 : (⟨S1, .f32⟩ : BufTy).Contents (Elt Ideal)) (g : Fin 16384) :
    lcol1 x2 x3 (ix1 g) = (Cert.RbfSpec.wTwo * Cert.RbfSpec.scale (x3 (ix1 0))) * x2 (ix2 g 1) := by
  unfold lcol1
  rw [mulf_apply, RowRead.broadcastInDim_scalar_apply, mulf_apply, sTerm_apply, shapeCast_a1_a_apply,
    slice2_col_apply 1 x2 _ g 0 (by decide)]
  rfl

open ValueIdx in
/-- The host's sum of squares over the two coordinates of image point `g`, from the zero word. -/
theorem sqsumP_apply (x2 : (⟨S16384x2, .f32⟩ : BufTy).Contents (Elt Ideal)) (g : Fin 16384) :
    Host.reduceAdd (F := Ideal) (mulf (F := Ideal) x2 x2) (constant (F := Ideal) S_ .f32 0x00000000#32) reducesTo_S16384x2_S16384_d1 h_S_ (ix1 g)
      = ∑ d : Fin 2, x2 (ix2 g d) * x2 (ix2 g d) := by
  generalize hy : mulf (F := Ideal) x2 x2 = y0
  simp only [Host.reduceAdd, Ideal.hostReduceAdd_def]
  rw [Ideal.hostReduceAdd_single reducesTo_S16384x2_S16384_d1 (by decide)]
  show Ideal.ofBits .f32 0x00000000#32 + _ = _
  rw [Ideal.ofBits_zero_f32, zero_add]
  refine Finset.sum_congr rfl fun k _ => ?_
  subst hy
  rw [mulf_apply]
  have ek : ∀ (hR : S16384x2.Reduces [1] S16384), hR.lift (ix1 g) k = ix2 g k := fun hR =>
    funext fun a => Fin.ext (by match a with | ⟨0, _⟩ => rfl | ⟨1, _⟩ => rfl)
  rw [ek]
  rfl

open ValueIdx in
theorem lcol2_apply (x2 : (⟨S16384x2, .f32⟩ : BufTy).Contents (Elt Ideal)) (x3 : (⟨S1, .f32⟩ : BufTy).Contents (Elt Ideal)) (g : Fin 16384) :
    lcol2 x2 x3 (ix1 g) = (-(Cert.RbfSpec.scale (x3 (ix1 0)))) * ∑ d : Fin 2, x2 (ix2 g d) * x2 (ix2 g d) := by
  unfold lcol2
  rw [mulf_apply, RowRead.broadcastInDim_scalar_apply, sqsumP_apply]
  show (-(sTerm x3 ix0)) * _ = _
  rw [sTerm_apply]

open ValueIdx in
theorem lcol3_apply (g : Fin 16384) : lcol3 (ix1 g) = Cert.RbfSpec.wOne := by
  unfold lcol3
  rw [RowRead.broadcastInDim_scalar_apply]
  rfl

open ValueIdx in
theorem left_read (m : (ℓ : Loc nD τ sig) → Buf (Elt Ideal) ℓ) (c : Dev nD) (g : Fin 16384) (k : Fin 4) :
    (entry m c (Proc.devRef .tc main_v26) : S16384x4.Idx → EReal) (ValueIdx.ix2 g k)
      = Cert.RbfSpec.augLeft (Pc m c) (llc m c) g k := by
  rw [left_e]
  unfold leftTerm
  match k with
  | ⟨0, _⟩ =>
    rw [concat4_cols_apply0 _ _ _ _ _ g _ rfl, RowRead.broadcastInDim_a_a1_apply _ _ rfl, lcol0_apply]
    rfl
  | ⟨1, _⟩ =>
    rw [concat4_cols_apply1 _ _ _ _ _ g _ rfl, RowRead.broadcastInDim_a_a1_apply _ _ rfl, lcol1_apply]
    rfl
  | ⟨2, _⟩ =>
    rw [concat4_cols_apply2 _ _ _ _ _ g _ rfl, RowRead.broadcastInDim_a_a1_apply _ _ rfl, lcol2_apply]
    rfl
  | ⟨3, _⟩ =>
    rw [concat4_cols_apply3 _ _ _ _ _ g _ rfl, RowRead.broadcastInDim_a_a1_apply _ _ rfl, lcol3_apply]
    rfl

/-! ## The context-side array -/

/-- Coordinate `d` of the context points, as a matrix over (batch, point). -/
def rrow0 (x0 : (⟨S8x1024x2, .f32⟩ : BufTy).Contents (Elt Ideal)) : (⟨S8x1024, .f32⟩ : BufTy).Contents (Elt Ideal) :=
  shapeCast _ (extractStridedSlice S8x1024x1 ![0, 0, 0] x0 slices_S8x1024x2_S8x1024x1_0_0_0) shapeCasts_S8x1024x1_S8x1024
def rrow1 (x0 : (⟨S8x1024x2, .f32⟩ : BufTy).Contents (Elt Ideal)) : (⟨S8x1024, .f32⟩ : BufTy).Contents (Elt Ideal) :=
  shapeCast _ (extractStridedSlice S8x1024x1 ![0, 0, 1] x0 slices_S8x1024x2_S8x1024x1_0_0_1) shapeCasts_S8x1024x1_S8x1024
/-- The matrix of ones. -/
def rrow2 : (⟨S8x1024, .f32⟩ : BufTy).Contents (Elt Ideal) :=
  broadcastInDim S8x1024 ![] bcast_S_S8x1024 (constant (F := Ideal) S_ .f32 0x3F800000#32)
/-- The squared norm of each context point times `-s`. -/
def rrow3 (x0 : (⟨S8x1024x2, .f32⟩ : BufTy).Contents (Elt Ideal)) (x3 : (⟨S1, .f32⟩ : BufTy).Contents (Elt Ideal)) :
    (⟨S8x1024, .f32⟩ : BufTy).Contents (Elt Ideal) :=
  mulf (F := Ideal) (broadcastInDim S8x1024 ![] bcast_S_S8x1024 (Host.negf (F := Ideal) (sTerm x3)))
    (Host.reduceAdd (F := Ideal) (mulf (F := Ideal) x0 x0) (constant (F := Ideal) S_ .f32 0x00000000#32) reducesTo_S8x1024x2_S8x1024_d2 h_S_)

/-- The context-side array as the operations compose it: four slabs joined. -/
def rightTerm (x0 : (⟨S8x1024x2, .f32⟩ : BufTy).Contents (Elt Ideal)) (x3 : (⟨S1, .f32⟩ : BufTy).Contents (Elt Ideal)) :
    (⟨S8x4x1024, .f32⟩ : BufTy).Contents (Elt Ideal) :=
  concatenate S8x4x1024 1
    [⟨S8x1x1024, broadcastInDim S8x1x1024 ![0, 2] bcast_S8x1024_S8x1x1024_0_2 (rrow0 x0)⟩,
     ⟨S8x1x1024, broadcastInDim S8x1x1024 ![0, 2] bcast_S8x1024_S8x1x1024_0_2 (rrow1 x0)⟩,
     ⟨S8x1x1024, broadcastInDim S8x1x1024 ![0, 2] bcast_S8x1024_S8x1x1024_0_2 rrow2⟩,
     ⟨S8x1x1024, broadcastInDim S8x1x1024 ![0, 2] bcast_S8x1024_S8x1x1024_0_2 (rrow3 x0 x3)⟩]
    concatenates_S8x1x1024_S8x1x1024_S8x1x1024_S8x1x1024_S8x4x1024_d1

set_option maxHeartbeats 2000000 in
theorem right_e (m : (ℓ : Loc nD τ sig) → Buf (Elt Ideal) ℓ) (c : Dev nD) :
    (entry m c (Proc.devRef .tc main_v41) : S8x4x1024.Idx → EReal)
      = rightTerm (m ((c.tc : Thread nD τ).loc main_arg0)) (m ((c.tc : Thread nD τ).loc main_arg3)) := by
  simp only [entry, Gen.hostOps0, Gen.hostOps0_1, Gen.hostOps0_2, List.flatten_cons, List.flatten_nil, List.append_nil, List.cons_append, List.nil_append]
  after_results
  rfl

open ValueIdx in
theorem rrow0_apply (x0 : (⟨S8x1024x2, .f32⟩ : BufTy).Contents (Elt Ideal)) (b : Fin 8) (n : Fin 1024) :
    rrow0 x0 (ix2 b n) = x0 (ix3 b n 0) := by
  unfold rrow0
  rw [ChannelRead.shapeCast_ab1_ab_apply, slice3_last_apply 0 x0 _ b n 0 (by decide)]
  rfl

open ValueIdx in
theorem rrow1_apply (x0 : (⟨S8x1024x2, .f32⟩ : BufTy).Contents (Elt Ideal)) (b : Fin 8) (n : Fin 1024) :
    rrow1 x0 (ix2 b n) = x0 (ix3 b n 1) := by
  unfold rrow1
  rw [ChannelRead.shapeCast_ab1_ab_apply, slice3_last_apply 1 x0 _ b n 0 (by decide)]
  rfl

open ValueIdx in
theorem rrow2_apply (b : Fin 8) (n : Fin 1024) : rrow2 (ix2 b n) = Cert.RbfSpec.wOne := by
  unfold rrow2
  rw [RowRead.broadcastInDim_scalar_apply]
  rfl

open ValueIdx in
/-- The host's sum of squares over the two coordinates of context point `(b, n)`, from the zero word. -/
theorem sqsumX_apply (x0 : (⟨S8x1024x2, .f32⟩ : BufTy).Contents (Elt Ideal)) (b : Fin 8) (n : Fin 1024) :
    Host.reduceAdd (F := Ideal) (mulf (F := Ideal) x0 x0) (constant (F := Ideal) S_ .f32 0x00000000#32) reducesTo_S8x1024x2_S8x1024_d2 h_S_ (ix2 b n)
      = ∑ d : Fin 2, x0 (ix3 b n d) * x0 (ix3 b n d) := by
  generalize hy : mulf (F := Ideal) x0 x0 = y0
  simp only [Host.reduceAdd, Ideal.hostReduceAdd_def]
  rw [Ideal.hostReduceAdd_single reducesTo_S8x1024x2_S8x1024_d2 (by decide)]
  show Ideal.ofBits .f32 0x00000000#32 + _ = _
  rw [Ideal.ofBits_zero_f32, zero_add]
  refine Finset.sum_congr rfl fun k _ => ?_
  subst hy
  rw [mulf_apply]
  have ek : ∀ (hR : S8x1024x2.Reduces [2] S8x1024), hR.lift (ix2 b n) k = ix3 b n k := fun hR =>
    funext fun a => Fin.ext (by match a with | ⟨0, _⟩ => rfl | ⟨1, _⟩ => rfl | ⟨2, _⟩ => rfl)
  rw [ek]
  rfl

open ValueIdx in
theorem rrow3_apply (x0 : (⟨S8x1024x2, .f32⟩ : BufTy).Contents (Elt Ideal)) (x3 : (⟨S1, .f32⟩ : BufTy).Contents (Elt Ideal)) (b : Fin 8) (n : Fin 1024) :
    rrow3 x0 x3 (ix2 b n) = (-(Cert.RbfSpec.scale (x3 (ix1 0)))) * ∑ d : Fin 2, x0 (ix3 b n d) * x0 (ix3 b n d) := by
  unfold rrow3
  rw [mulf_apply, RowRead.broadcastInDim_scalar_apply, sqsumX_apply]
  show (-(sTerm x3 ix0)) * _ = _
  rw [sTerm_apply]

open ValueIdx in
theorem right_read (m : (ℓ : Loc nD τ sig) → Buf (Elt Ideal) ℓ) (c : Dev nD) (b : Fin 8) (k : Fin 4) (n : Fin 1024) :
    (entry m c (Proc.devRef .tc main_v41) : S8x4x1024.Idx → EReal) (ValueIdx.ix3 b k n)
      = Cert.RbfSpec.augRight (Xc m c) (llc m c) b n k := by
  rw [right_e]
  unfold rightTerm
  match k with
  | ⟨0, _⟩ =>
    rw [concat4_mid_apply0 _ _ _ _ _ b n _ rfl, broadcastInDim_ac_a1c_apply _ _ rfl, rrow0_apply]
    rfl
  | ⟨1, _⟩ =>
    rw [concat4_mid_apply1 _ _ _ _ _ b n _ rfl, broadcastInDim_ac_a1c_apply _ _ rfl, rrow1_apply]
    rfl
  | ⟨2, _⟩ =>
    rw [concat4_mid_apply2 _ _ _ _ _ b n _ rfl, broadcastInDim_ac_a1c_apply _ _ rfl, rrow2_apply]
    rfl
  | ⟨3, _⟩ =>
    rw [concat4_mid_apply3 _ _ _ _ _ b n _ rfl, broadcastInDim_ac_a1c_apply _ _ rfl, rrow3_apply]
    rfl

end Cert.KernelIdeal.HostValue
end
-- ==== Proof.KIWhole.lean ====
/-
  The idealized kernel program's result as ONE function of the argument arrays.

  At grid point `(b, g)` the body's payload, read at `(0, ch, j)`, is channel `ch` of the augmented arrangement at batch
  `b` and image point `2048·g + j`: row `j` of the image block is that point's row of the augmented image array, the
  context block is slab `b` of the augmented context array and the feature block slab `b` of the features, and those
  three arrays are what the host lines before the region computed from the arguments.  The output's blocks cover the
  [8, 3, 16384] result, so it ends holding the augmented arrangement everywhere; the reshape after the region lays it
  out as [8, 3, 128, 128], image point `128·iy + ix` at `(iy, ix)`.
-/
import proofs.«117513_j37263136260428_2_alg».proof.Proof.KIBlocks
import proofs.«117513_j37263136260428_2_alg».proof.Proof.BodyRead
import proofs.«117513_j37263136260428_2_alg».proof.Proof.HostRead

set_option maxRecDepth 16384

noncomputable section

namespace Cert.KernelIdeal.Whole

open Cert.KernelIdeal Cert.KernelIdeal.Gen Cert.KernelIdeal.Hand Cert.KernelIdeal.HostValue Cert.RbfSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The payload of three blocks that ARE the augmented operands of batch `b` at the image points `g0, g0 + 1, …` is
    the augmented arrangement there, channel by channel. -/
theorem point_value (X Y : Fin 8 → Fin 1024 → Fin 2 → EReal) (P : Fin 16384 → Fin 2 → EReal) (ll : EReal) (b : Fin 8)
    (g0 : ℕ) (hg : ∀ j : Fin 2048, g0 + j.val < 16384)
    (x0 : Vec Ideal S2048x4 .f32) (x1 : Vec Ideal S1x4x1024 .f32) (x2 : Vec Ideal S1x1024x2 .bf16)
    (h0 : ∀ (j : Fin 2048) (k : Fin 4), x0 (ix2 j k) = augLeft P ll ⟨g0 + j.val, hg j⟩ k)
    (h1 : ∀ (k : Fin 4) (n : Fin 1024), x1 (ix3 (0 : Fin 1) k n) = augRight X ll b n k)
    (h2 : ∀ (n : Fin 1024) (d : Fin 2), x2 (ix3 (0 : Fin 1) n d) = Y b n d)
    (ch : Fin 3) (j : Fin 2048) :
    k0_pay1 (F := Ideal) x0 x1 x2 (ix3 (0 : Fin 1) ch j) = augOut X Y P ll b ⟨g0 + j.val, hg j⟩ ch := by
  have hw : ∀ n, BodyValue.blockWeight x0 x1 j n = augWeight X P ll b ⟨g0 + j.val, hg j⟩ n := fun n => by
    unfold BodyValue.blockWeight augWeight
    simp only [h0, h1]
  have hd : BodyValue.blockDensity x0 x1 j = augDensity X P ll b ⟨g0 + j.val, hg j⟩ := by
    unfold BodyValue.blockDensity augDensity
    simp only [hw]
  have hf : ∀ d, BodyValue.blockFeature x0 x1 x2 j d = augFeature X Y P ll b ⟨g0 + j.val, hg j⟩ d := fun d => by
    unfold BodyValue.blockFeature augFeature
    simp only [hw, h2]
  match ch with
  | ⟨0, _⟩ => exact (BodyValue.pay_read_density x0 x1 x2 j).trans hd
  | ⟨1, _⟩ => exact (BodyValue.pay_read_feature0 x0 x1 x2 j).trans (by rw [hf, hd]; rfl)
  | ⟨2, _⟩ => exact (BodyValue.pay_read_feature1 x0 x1 x2 j).trans (by rw [hf, hd]; rfl)

/-- The [8, 3, 16384] result: the augmented arrangement of the argument arrays, batch, channel, image point. -/
def regionOut (c : Dev nD) : S8x3x16384.Idx → EReal :=
  fun i => augOut (Xc m c) (Yc m c) (Pc m c) (llc m c) (i 0) (i 2) (i 1)

/-- What point `t` writes back is block `t` of `regionOut`. -/
theorem flushed_eq (c : Dev nD) (t : Fin cfg0.N) :
    (dats m 0 c).flushed 3 t = ((cfg0.win 3).blk t).view.read (Elt Ideal) (regionOut m c) := by
  show (cfg0.win 3).cut (grid0.coords t) ((dats m 0 c).after 3 t) = _
  rw [after3]
  unfold stored
  rw [View.canon_unit_zero zeros3]
  simp only [View.ld_unit_zero (S := S2048x4) zeros2, View.ld_unit_zero (S := S1x4x1024) zeros3, View.ld_unit_zero (S := S1x1024x2) zeros3]
  obtain ⟨e0, e1, e2, e3, e4, e5, e6, e7, e8, e9, e10⟩ := index_facts t
  funext y
  obtain ⟨u, ch, j, rfl⟩ : ∃ (u : Fin 1) (ch : Fin 3) (j : Fin 2048), y = ix3 u ch j :=
    ⟨y 0, y 1, y 2, eq_ix3 (n0 := 1) (n1 := 3) (n2 := 2048) y⟩
  obtain rfl : u = 0 := Subsingleton.elim _ _
  have hj : j.val < 2048 := j.isLt
  have hch : ch.val < 3 := ch.isLt
  show k0_pay1 (F := Ideal) (blockAt m c 0 t) (blockAt m c 1 t) (blockAt m c 2 t) (ix3 (0 : Fin 1) ch j)
    = regionOut m c (((cfg0.win 3).blk t).view.emb (ix3 (0 : Fin 1) ch j))
  refine (point_value (Xc m c) (Yc m c) (Pc m c) (llc m c) ⟨win0_3.index t (0 : Fin 3), e9⟩ (win0_3.index t (2 : Fin 3) * 2048)
    (fun j => by have := j.isLt; omega) (blockAt m c 0 t) (blockAt m c 1 t) (blockAt m c 2 t)
    (fun j k => (block0_read m c t j k (by have := j.isLt; omega)).trans (left_read m c _ k))
    (fun k n => (block1_read m c t k n e9).trans (right_read m c _ k n))
    (fun n d => (block2_read m c t n d e9).trans (feat_read m c _ n d)) ch j).trans ?_
  unfold regionOut
  have i0 : (((cfg0.win 3).blk t).view.emb (ix3 (0 : Fin 1) ch j)) 0 = (⟨win0_3.index t (0 : Fin 3), e9⟩ : Fin 8) := by
    apply Fin.ext
    show win0_3.index t (0 : Fin 3) * 1 + 1 * 0 = win0_3.index t (0 : Fin 3); omega
  have i1 : (((cfg0.win 3).blk t).view.emb (ix3 (0 : Fin 1) ch j)) 1 = ch := by
    apply Fin.ext
    show win0_3.index t (1 : Fin 3) * 3 + 1 * ch.val = ch.val; omega
  have i2 : (((cfg0.win 3).blk t).view.emb (ix3 (0 : Fin 1) ch j)) 2 = (⟨win0_3.index t (2 : Fin 3) * 2048 + j.val, by omega⟩ : Fin 16384) := by
    apply Fin.ext
    show win0_3.index t (2 : Fin 3) * 2048 + 1 * j.val = win0_3.index t (2 : Fin 3) * 2048 + j.val; omega
  rw [i0, i1, i2]

/-- The result after the run: the augmented arrangement everywhere. -/
theorem final (c : Dev nD) : (dats m 0 c).arrAt 3 cfg0.N = regionOut m c :=
  (dats m 0 c).arrAt_eq_of_cover 3 (regionOut m c) (fun t _ => flushed_eq m c t) covered3

/-- The [8, 3, 128, 128] image: the augmented arrangement at batch `i 0`, channel `i 1`, image point `(i 2, i 3)`. -/
def imageOut (c : Dev nD) : S8x3x128x128.Idx → EReal :=
  fun i => augOut (Xc m c) (Yc m c) (Pc m c) (llc m c) (i 0) (pointOf (i 2) (i 3)) (i 1)

/-- What the reshape after the region leaves in @main's result. -/
theorem image_eq (c : Dev nD) :
    Pipeline.afterTail₀ cfgs (dats m) 0 (entryVal m) [hostOps1] c main_v44 = imageOut m c := by
  unfold Pipeline.afterTail₀
  show StableHlo.after hostOps1 _ (Proc.devRef .tc main_v44) = _
  after_results
  rw [show Pipeline.withArrays spec0 c (entryVal m c) (fun w => (dats m 0 c).arrAt w cfg0.N) (Proc.devRef .tc main_v43) = regionOut m c from
    (Pipeline.withArrays_arr spec0 launch0.win.arr_inj c _ _ 3).trans (final m c)]
  funext i
  obtain ⟨b, ch, iy, ix, rfl⟩ : ∃ (b : Fin 8) (ch : Fin 3) (iy ix : Fin 128), i = ix4 b ch iy ix :=
    ⟨i 0, i 1, i 2, i 3, eq_ix4 (n0 := 8) (n1 := 3) (n2 := 128) (n3 := 128) i⟩
  exact image_read (regionOut m c) _ b ch iy ix

/-- THE RUN, READ: every weakly fair execution of @main terminates with the result at `imageOut` of the arguments and the
    arguments unchanged. -/
theorem run : θ_run defs (onTc (τ := τ) (main (F := Ideal))) ⟨m, fun _ => 0, ρ⟩ (fun r => ∀ c : Dev nD,
      r.2.mem ((c.tc : Thread nD τ).loc main_v44) = imageOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).2 main_v44 (Pipeline.mem_restRefs_of main_v44 (by decide) (by decide))).trans (image_eq m c),
     arg_kept m c main_arg0 (by decide) (StableHlo.devRef_ne_of_ne (by decide)) (Pipeline.mem_restRefs_of main_arg0 (by decide) (by decide)) (arg0_entry m c) r h,
     arg_kept m c main_arg1 (by decide) (StableHlo.devRef_ne_of_ne (by decide)) (Pipeline.mem_restRefs_of main_arg1 (by decide) (by decide)) (arg1_entry m c) r h,
     arg_kept m c main_arg2 (by decide) (StableHlo.devRef_ne_of_ne (by decide)) (Pipeline.mem_restRefs_of main_arg2 (by decide) (by decide)) (arg2_entry m c) r h,
     arg_kept m c main_arg3 (by decide) (StableHlo.devRef_ne_of_ne (by decide)) (Pipeline.mem_restRefs_of main_arg3 (by decide) (by decide)) (arg3_entry m c) r h⟩)
    (run_main m ρ)

end Cert.KernelIdeal.Whole

end
-- ==== Proof.RefRead.lean ====
/-
  The reference program read at an index: its result at batch b, channel ch, image row iy and column ix is the
  DIRECT arrangement of the radial-basis feature map (Spec.lean's directOut) at b, the image point 128·iy + ix
  and ch, over the coordinate functions of the four arguments.

  The program is read stage by stage, each stage at an index written by its coordinates:
    * the clamped length scale and the divisor (2·l)·l, from the one number of the last argument;
    * the weight exp (-(|P g - X b n|²) / D) at (b, g, n): two broadcasts, a subtraction, a square, a sum over
      the two coordinates from zero, a negation, a division and an exponential;
    * the features extended by a leading channel of ones: a concatenation along the last axis;
    * the contraction over the 1024 context points;
    * the density slice, the feature slice divided by the broadcast density, and their concatenation;
    * the reshape of the 16384 image points into 128 rows of 128, and the transpose that brings the channel
      axis in front of the two image axes.
-/
import proofs.«117513_j37263136260428_2_alg».proof.Proof.Gen.ReferenceIdeal.Read
import proofs.«117513_j37263136260428_2_alg».proof.Proof.Spec

noncomputable section

namespace Cert.ReferenceIdeal.RefValue

open Cert.ReferenceIdeal Cert.ReferenceIdeal.Gen Cert.ReferenceIdeal.Read Cert.RbfSpec
open Idealize.ShloMosaic Idealize.ShloMosaic.ValueIdx

/-- The arguments as coordinate functions. -/
abbrev cX (x0 : (⟨S8x1024x2, .f32⟩ : BufTy).Contents (Elt Ideal)) : Fin 8 → Fin 1024 → Fin 2 → EReal :=
  fun b n d => x0 (ix3 b n d)
abbrev cP (x2 : (⟨S16384x2, .f32⟩ : BufTy).Contents (Elt Ideal)) : Fin 16384 → Fin 2 → EReal :=
  fun g d => x2 (ix2 g d)
abbrev cL (x3 : (⟨S1, .f32⟩ : BufTy).Contents (Elt Ideal)) : EReal := x3 (ix1 0)

/-! ## The scalar stages -/

/-- The reshape of the one-element vector to a scalar reads its one element. -/
theorem v0_read (x3 : (⟨S1, .f32⟩ : BufTy).Contents (Elt Ideal)) (i : S_.Idx) :
    val_main_v0 (F := Ideal) x3 i = cL x3 := by
  unfold val_main_v0
  refine shapeCast_apply x3 _ i (ix1 0) ?_
  rw [Shape.rowMajor_val_one]
  show 0 = (Shape.rowMajorPi _ i).val
  rw [Shape.rowMajorPi_zero]

/-- The length scale: the exponential of the clamped logarithm. -/
theorem v2_read (x3 : (⟨S1, .f32⟩ : BufTy).Contents (Elt Ideal)) (i : S_.Idx) :
    val_main_v2 (F := Ideal) x3 i = lscale (cL x3) := by
  rw [val_main_v2_apply, val_main_v1_apply, val_main_call0_v2_apply, val_main_cst_0_apply,
    val_main_call0_v1_apply, val_main_call0_v0_apply, val_main_cst_apply, v0_read]
  simp only [Ideal.hostUnary_exp_def, Ideal.minimumf_def, Ideal.maximumf_def, Ideal.ofBits_def]
  rfl

/-- The divisor (2·l)·l. -/
theorem v12_read (x3 : (⟨S1, .f32⟩ : BufTy).Contents (Elt Ideal)) (i : S_.Idx) :
    val_main_v12 (F := Ideal) x3 i = denom (cL x3) := by
  rw [val_main_v12_apply, val_main_v11_apply, val_main_cst_2_apply, v2_read]
  simp only [Ideal.mulf_def, Ideal.ofBits_def]
  rfl

/-! ## The weight -/

/-- The image point read through the two broadcasts at (b, g, n, d) is P g d. -/
theorem idxP (b : Fin 8) (g : Fin 16384) (n : Fin 1024) (k : Fin 2) :
    idx_main_v3 (idx_main_v5 (idx_main_v9 (ix3 b g n) k)) = ix2 g k :=
  funext fun a => Fin.ext (by match a with | ⟨0, _⟩ => rfl | ⟨1, _⟩ => rfl)

/-- The context point read through the two broadcasts at (b, g, n, d) is X b n d. -/
theorem idxX (b : Fin 8) (g : Fin 16384) (n : Fin 1024) (k : Fin 2) :
    idx_main_v4 (idx_main_v6 (idx_main_v9 (ix3 b g n) k)) = ix3 b n k :=
  funext fun a => Fin.ext (by match a with | ⟨0, _⟩ => rfl | ⟨1, _⟩ => rfl | ⟨2, _⟩ => rfl)

/-- The weight of context point n at image point g, in batch b. -/
theorem v15_read (x0 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (g : Fin 16384) (n : Fin 1024) :
    val_main_v15 (F := Ideal) x0 x2 x3 (ix3 b g n) = directWeight (cX x0) (cP x2) (cL x3) b g n := by
  rw [val_main_v15_apply, val_main_v14_apply, val_main_v10_apply, val_main_v9_apply, val_main_cst_1_apply,
    val_main_v13_apply, v12_read]
  simp only [val_main_v8_apply, val_main_v7_apply, val_main_v5_apply, val_main_v3_apply, val_main_v6_apply,
    val_main_v4_apply, idxP, idxX]
  simp only [Ideal.hostUnary_exp_def, Ideal.hostDivf_def, Ideal.hostNegf_def, Ideal.negf_def, Ideal.mulf_def,
    Ideal.subf_def, Ideal.ofBits_def, Ideal.ofBits_zero_f32, zero_add]
  rfl

/-! ## The features extended by a channel of ones -/

/-- The concatenation of the column of ones with the two feature channels, at (b, n, c). -/
theorem v17_read (x1 : (⟨S8x1024x2, .f32⟩ : BufTy).Contents (Elt Ideal)) (b : Fin 8) (n : Fin 1024) (c : Fin 3) :
    val_main_v17 (F := Ideal) x1 (ix3 b n c) = extended (cX x1) b n c := by
  unfold val_main_v17
  match c with
  | ⟨0, _⟩ =>
    refine (concatenate_pair_apply_left (t := S8x1024x3) (s₁ := S8x1024x1) (s₂ := S8x1024x2) (2 : Fin 3) _ _ _ _ rfl
      (ix3 b n (0 : Fin 1)) (fun a => by
        match a with | ⟨0, _⟩ => rfl | ⟨1, _⟩ => rfl | ⟨2, _⟩ => rfl)).trans ?_
    rw [val_main_v16_apply, val_main_cst_3_apply]
    rfl
  | ⟨1, _⟩ =>
    refine (concatenate_pair_apply_right (t := S8x1024x3) (s₁ := S8x1024x1) (s₂ := S8x1024x2) (2 : Fin 3) _ _ _ _ rfl rfl
      (ix3 b n (0 : Fin 2)) (fun a ha => by
        match a with | ⟨0, _⟩ => rfl | ⟨1, _⟩ => rfl | ⟨2, _⟩ => exact absurd rfl ha) rfl).trans ?_
    rfl
  | ⟨2, _⟩ =>
    refine (concatenate_pair_apply_right (t := S8x1024x3) (s₁ := S8x1024x1) (s₂ := S8x1024x2) (2 : Fin 3) _ _ _ _ rfl rfl
      (ix3 b n (1 : Fin 2)) (fun a ha => by
        match a with | ⟨0, _⟩ => rfl | ⟨1, _⟩ => rfl | ⟨2, _⟩ => exact absurd rfl ha) rfl).trans ?_
    rfl

/-! ## The contraction over the context points -/

theorem lidx_at (b : Fin 8) (g : Fin 16384) (c : Fin 3) (k : Fin 1024) :
    lidx_main_v18 (ix3 b g c) k = ix3 b g k :=
  funext fun a => Fin.ext (by match a with | ⟨0, _⟩ => rfl | ⟨1, _⟩ => rfl | ⟨2, _⟩ => rfl)

theorem ridx_at (b : Fin 8) (g : Fin 16384) (c : Fin 3) (k : Fin 1024) :
    ridx_main_v18 (ix3 b g c) k = ix3 b k c :=
  funext fun a => Fin.ext (by match a with | ⟨0, _⟩ => rfl | ⟨1, _⟩ => rfl | ⟨2, _⟩ => rfl)

/-- The weights summed against the extended features, at (b, g, c). -/
theorem v18_read (x0 x1 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (g : Fin 16384) (c : Fin 3) :
    val_main_v18 (F := Ideal) x0 x1 x2 x3 (ix3 b g c) = directSum (cX x0) (cX x1) (cP x2) (cL x3) b g c := by
  rw [val_main_v18_apply]
  unfold directSum
  refine Finset.sum_congr rfl fun k _ => ?_
  rw [lidx_at, ridx_at, v15_read, v17_read]

/-! ## The density, the divided features, and their concatenation -/

/-- The density slice at (b, g, 0) is channel 0 of the contraction. -/
theorem v19_read (x0 x1 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (g : Fin 16384) :
    val_main_v19 (F := Ideal) x0 x1 x2 x3 (ix3 b g (0 : Fin 1)) = directSum (cX x0) (cX x1) (cP x2) (cL x3) b g 0 := by
  rw [val_main_v19_apply,
    show idx_main_v19 (ix3 b g (0 : Fin 1)) = ix3 b g (0 : Fin 3) from
      funext fun a => Fin.ext (by match a with | ⟨0, _⟩ => rfl | ⟨1, _⟩ => rfl | ⟨2, _⟩ => rfl),
    v18_read]

/-- The feature slice divided by the broadcast density at (b, g, c): channel c + 1 over channel 0. -/
theorem v22_read (x0 x1 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (g : Fin 16384) (c : Fin 2) :
    val_main_v22 (F := Ideal) x0 x1 x2 x3 (ix3 b g c)
      = Ideal.div (directSum (cX x0) (cX x1) (cP x2) (cL x3) b g ⟨1 + c.val, by omega⟩)
          (directSum (cX x0) (cX x1) (cP x2) (cL x3) b g 0) := by
  rw [val_main_v22_apply, val_main_v20_apply, val_main_v21_apply,
    show idx_main_v20 (ix3 b g c) = ix3 b g (⟨1 + c.val, by omega⟩ : Fin 3) from
      funext fun a => Fin.ext (by match a with | ⟨0, _⟩ => rfl | ⟨1, _⟩ => rfl | ⟨2, _⟩ => rfl),
    show idx_main_v21 (ix3 b g c) = ix3 b g (0 : Fin 1) from
      funext fun a => Fin.ext (by match a with | ⟨0, _⟩ => rfl | ⟨1, _⟩ => rfl | ⟨2, _⟩ => rfl),
    v18_read, v19_read]
  rfl

/-- The concatenation of the density with the two divided channels at (b, g, c) is the direct arrangement. -/
theorem v23_read (x0 x1 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (g : Fin 16384) (c : Fin 3) :
    val_main_v23 (F := Ideal) x0 x1 x2 x3 (ix3 b g c) = directOut (cX x0) (cX x1) (cP x2) (cL x3) b g c := by
  unfold val_main_v23
  match c with
  | ⟨0, _⟩ =>
    refine (concatenate_pair_apply_left (t := S8x16384x3) (s₁ := S8x16384x1) (s₂ := S8x16384x2) (2 : Fin 3) _ _ _ _ rfl
      (ix3 b g (0 : Fin 1)) (fun a => by
        match a with | ⟨0, _⟩ => rfl | ⟨1, _⟩ => rfl | ⟨2, _⟩ => rfl)).trans ?_
    rw [v19_read]
    rfl
  | ⟨1, _⟩ =>
    refine (concatenate_pair_apply_right (t := S8x16384x3) (s₁ := S8x16384x1) (s₂ := S8x16384x2) (2 : Fin 3) _ _ _ _ rfl rfl
      (ix3 b g (0 : Fin 2)) (fun a ha => by
        match a with | ⟨0, _⟩ => rfl | ⟨1, _⟩ => rfl | ⟨2, _⟩ => exact absurd rfl ha) rfl).trans ?_
    rw [v22_read]
    rfl
  | ⟨2, _⟩ =>
    refine (concatenate_pair_apply_right (t := S8x16384x3) (s₁ := S8x16384x1) (s₂ := S8x16384x2) (2 : Fin 3) _ _ _ _ rfl rfl
      (ix3 b g (1 : Fin 2)) (fun a ha => by
        match a with | ⟨0, _⟩ => rfl | ⟨1, _⟩ => rfl | ⟨2, _⟩ => exact absurd rfl ha) rfl).trans ?_
    rw [v22_read]
    rfl

/-! ## The reshape and the transpose -/

/-- Row iy, column ix of the image is image point 128·iy + ix; the channel axis moves in front of the image axes. -/
theorem idx_out (b : Fin 8) (ch : Fin 3) (iy ix : Fin 128) :
    idx_main_v24 (idx_main_v25 (ix4 b ch iy ix)) = ix3 b (pointOf iy ix) ch :=
  funext fun a => Fin.ext (by
    have hb := b.isLt; have hc := ch.isLt; have hy := iy.isLt; have hx := ix.isLt
    match a with
    | ⟨0, _⟩ => show (((b.val * 128 + iy.val) * 128 + ix.val) * 3 + ch.val) / 49152 = b.val; omega
    | ⟨1, _⟩ => show (((b.val * 128 + iy.val) * 128 + ix.val) * 3 + ch.val) / 3 % 16384 = iy.val * 128 + ix.val; omega
    | ⟨2, _⟩ => show (((b.val * 128 + iy.val) * 128 + ix.val) * 3 + ch.val) % 3 = ch.val; omega)

/-- The reference's result at (b, ch, iy, ix) is the direct arrangement at b, image point 128·iy + ix, channel ch. -/
theorem ref_read (x0 x1 : (⟨S8x1024x2, .f32⟩ : BufTy).Contents (Elt Ideal)) (x2 : (⟨S16384x2, .f32⟩ : BufTy).Contents (Elt Ideal))
    (x3 : (⟨S1, .f32⟩ : BufTy).Contents (Elt Ideal)) (b : Fin 8) (ch : Fin 3) (iy ix : Fin 128) :
    Cert.ReferenceIdeal.Read.val_main_v25 (F := Ideal) x0 x1 x2 x3 (ValueIdx.ix4 b ch iy ix)
      = Cert.RbfSpec.directOut (fun b n d => x0 (ValueIdx.ix3 b n d)) (fun b n d => x1 (ValueIdx.ix3 b n d))
          (fun g d => x2 (ValueIdx.ix2 g d)) (x3 (ValueIdx.ix1 0)) b (Cert.RbfSpec.pointOf iy ix) ch := by
  rw [val_main_v25_apply, val_main_v24_apply, idx_out, v23_read]

end Cert.ReferenceIdeal.RefValue

end
-- ==== Proof.Algebra.lean ====
/-
  The law that joins the two arrangements of the radial-basis feature map: over real coordinates and a real
  logarithm of the length scale, the augmented four-term contraction is the negated squared distance divided by
  `D = (2·l)·l`, so the two weights agree, and with them the densities, the feature sums and the quotients.

  The mathematics.  The logarithm clamped into [-5, 5] is a real `t`, so `l = exp t` is a positive real, `D` is a
  positive real and `s = 1 / D` is the real `1 / D`; division by `D` is multiplication by `s`.  With
  `p = P g` and `x = X b n` real,
    `2s·p₀·x₀ + 2s·p₁·x₁ - s·(p₀² + p₁²) - s·(x₀² + x₁²) = -((p₀ - x₀)² + (p₁ - x₁)²)·s`,
  an identity of the real field.  The channel of ones multiplies each weight by one, which changes nothing, and
  the two quotients are the same function of equal arguments: no property of the division is used.
-/
import proofs.«117513_j37263136260428_2_alg».proof.Proof.Spec

noncomputable section

namespace Cert.RbfSpec

open Idealize.ShloMosaic

/-! ### The four float words as reals -/

theorem wTwo_eq : wTwo = ((2 : ℝ) : EReal) := by
  simp [wTwo, Ideal.ofBits, Ideal.ieee, -EReal.coe_mul]; norm_num

theorem wOne_eq : wOne = 1 := by
  simp [wOne, Ideal.ofBits, Ideal.ieee, -EReal.coe_mul]; norm_num

theorem wFive_eq : wFive = ((5 : ℝ) : EReal) := by
  simp [wFive, Ideal.ofBits, Ideal.ieee, -EReal.coe_mul]; norm_num

theorem wNegFive_eq : wNegFive = ((-5 : ℝ) : EReal) := by
  simp [wNegFive, Ideal.ofBits, Ideal.ieee, -EReal.coe_mul]; norm_num

/-! ### The length scale, the divisor and the scale are reals -/

/-- The length scale of a real logarithm is the positive real `exp (min 5 (max (-5) r))`. -/
theorem lscale_coe (r : ℝ) : lscale (r : EReal) = ((Real.exp (min 5 (max (-5) r)) : ℝ) : EReal) := by
  have hmax : max (((-5 : ℝ)) : EReal) (r : EReal) = ((max (-5) r : ℝ) : EReal) :=
    (EReal.coe_strictMono.monotone.map_max).symm
  have hmin : min ((5 : ℝ) : EReal) ((max (-5) r : ℝ) : EReal) = ((min 5 (max (-5) r) : ℝ) : EReal) :=
    (EReal.coe_strictMono.monotone.map_min).symm
  rw [lscale, wFive_eq, wNegFive_eq, hmax, hmin, Ideal.exp_coe]

/-- The divisor of a real logarithm is the real `(2·l)·l`. -/
theorem denom_coe (r : ℝ) :
    denom (r : EReal) =
      (((2 * Real.exp (min 5 (max (-5) r))) * Real.exp (min 5 (max (-5) r)) : ℝ) : EReal) := by
  rw [denom, lscale_coe, wTwo_eq, ← EReal.coe_mul, ← EReal.coe_mul]

/-- Over a real logarithm there is ONE real `s` (the reciprocal of the divisor) that the scale is and that
    division by the divisor multiplies by. -/
theorem scale_real (ll : EReal) (hll : ∃ r : ℝ, ll = (r : EReal)) :
    ∃ s : ℝ, scale ll = (s : EReal) ∧ ∀ a : EReal, Ideal.div a (denom ll) = a * (s : EReal) := by
  obtain ⟨r, rfl⟩ := hll
  have hD : (2 * Real.exp (min 5 (max (-5) r))) * Real.exp (min 5 (max (-5) r)) ≠ 0 := by
    have := Real.exp_pos (min 5 (max (-5) r))
    positivity
  refine ⟨1 / ((2 * Real.exp (min 5 (max (-5) r))) * Real.exp (min 5 (max (-5) r))), ?_, ?_⟩
  · rw [scale, denom_coe, Ideal.div_coe hD, wOne_eq, one_mul]
  · intro a
    rw [denom_coe, Ideal.div_coe hD]

/-! ### The weights agree -/

theorem aug_weight_eq (X : Fin 8 → Fin 1024 → Fin 2 → EReal) (P : Fin 16384 → Fin 2 → EReal) (ll : EReal)
    (hX : ∀ b n d, ∃ r : ℝ, X b n d = (r : EReal)) (hP : ∀ g d, ∃ r : ℝ, P g d = (r : EReal))
    (hll : ∃ r : ℝ, ll = (r : EReal)) (b : Fin 8) (g : Fin 16384) (n : Fin 1024) :
    augWeight X P ll b g n = directWeight X P ll b g n := by
  obtain ⟨s, hs, hdiv⟩ := scale_real ll hll
  obtain ⟨x0, hx0⟩ := hX b n 0
  obtain ⟨x1, hx1⟩ := hX b n 1
  obtain ⟨p0, hp0⟩ := hP g 0
  obtain ⟨p1, hp1⟩ := hP g 1
  have hL : ∑ k : Fin 4, augLeft P ll g k * augRight X ll b n k
      = (((2 * s) * p0 * x0 + (2 * s) * p1 * x1 + (-s) * (p0 * p0 + p1 * p1) * 1
          + 1 * ((-s) * (x0 * x0 + x1 * x1)) : ℝ) : EReal) := by
    rw [Fin.sum_univ_four]
    show (wTwo * scale ll) * P g 0 * X b n 0 + (wTwo * scale ll) * P g 1 * X b n 1
        + (-(scale ll)) * sqP P g * wOne + wOne * ((-(scale ll)) * sqX X b n) = _
    rw [sqP, sqX, Fin.sum_univ_two, Fin.sum_univ_two, hs, hx0, hx1, hp0, hp1, wTwo_eq, wOne_eq,
      ← EReal.coe_one]
    simp only [← EReal.coe_mul, ← EReal.coe_add, ← EReal.coe_neg]
  have hR : Ideal.div (-(∑ d : Fin 2, (P g d - X b n d) * (P g d - X b n d))) (denom ll)
      = (((-((p0 - x0) * (p0 - x0) + (p1 - x1) * (p1 - x1))) * s : ℝ) : EReal) := by
    rw [hdiv, Fin.sum_univ_two, hx0, hx1, hp0, hp1]
    simp only [← EReal.coe_sub, ← EReal.coe_mul, ← EReal.coe_add, ← EReal.coe_neg]
  rw [augWeight, directWeight, hL, hR]
  congr 2
  ring

/-! ### The sums and the quotients agree -/

theorem aug_eq_direct (X Y : Fin 8 → Fin 1024 → Fin 2 → EReal) (P : Fin 16384 → Fin 2 → EReal) (ll : EReal)
    (hX : ∀ b n d, ∃ r : ℝ, X b n d = (r : EReal)) (hY : ∀ b n d, ∃ r : ℝ, Y b n d = (r : EReal))
    (hP : ∀ g d, ∃ r : ℝ, P g d = (r : EReal)) (hll : ∃ r : ℝ, ll = (r : EReal))
    (b : Fin 8) (g : Fin 16384) (ch : Fin 3) : augOut X Y P ll b g ch = directOut X Y P ll b g ch := by
  have hw : ∀ n, augWeight X P ll b g n = directWeight X P ll b g n :=
    fun n => aug_weight_eq X P ll hX hP hll b g n
  have h0 : augDensity X P ll b g = directSum X Y P ll b g 0 := by
    rw [augDensity, directSum]
    refine Finset.sum_congr rfl fun n _ => ?_
    show _ = directWeight X P ll b g n * wOne
    rw [hw n, wOne_eq, mul_one]
  have h1 : augFeature X Y P ll b g 0 = directSum X Y P ll b g 1 := by
    rw [augFeature, directSum]
    refine Finset.sum_congr rfl fun n _ => ?_
    show _ = directWeight X P ll b g n * Y b n 0
    rw [hw n]
  have h2 : augFeature X Y P ll b g 1 = directSum X Y P ll b g 2 := by
    rw [augFeature, directSum]
    refine Finset.sum_congr rfl fun n _ => ?_
    show _ = directWeight X P ll b g n * Y b n 1
    rw [hw n]
  match ch with
  | ⟨0, _⟩ => exact h0
  | ⟨1, _⟩ =>
    show Ideal.div (augFeature X Y P ll b g 0) (augDensity X P ll b g) = Ideal.div _ _
    rw [h1, h0]
  | ⟨2, _⟩ =>
    show Ideal.div (augFeature X Y P ll b g 1) (augDensity X P ll b g) = Ideal.div _ _
    rw [h2, h0]

end Cert.RbfSpec

end
-- ==== Proof.LibAllFinite.lean ====
/-
  A `finite inputs` precondition decoded. A printed precondition states, of a float array `a`, that
  `jnp.all(|a| < +inf)` is true: the `and`-reduction, to a single bit, of the comparison of `|a|` against the broadcast
  word 0x7F800000. At the extended reals that word is `⊤` and `|x| = max x (-x)` is `⊤` at both infinities, so the
  bit being 1 says exactly that every entry of `a` is a real number. Stated for any shape, any broadcast witness
  and any reduction witness, so that one use per argument array decodes a whole precondition; the join of the
  arrays' bits by `and` splits with `andi_apply_eq_one`.
-/
import Idealize.ShloMosaic.PureOps.Ideal
import Idealize.ShloMosaic.Lib.ReduceAll
import Idealize.ShloMosaic.Lib.ValueIdx

noncomputable section

namespace Idealize.ShloMosaic.AllFinite

open Idealize.ShloMosaic

/-- The rank-0 shape of a single bit or a scalar. -/
abbrev S0 : Shape := ⟨0, ![]⟩

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value `max x (-x)` is below ⊤ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The rank-0 shape has one index. -/
instance : Subsingleton S0.Idx := ⟨fun a b => funext fun d => d.elim0⟩

/-- Where the comparison `|a| < broadcast(+∞)` is 1 at an index, the array holds a real there. -/
theorem real_of_cmp {S : Shape} (a : FVec Ideal S .f32) (dims : Fin S0.rank → Fin S.rank)
    (hb : S0.BroadcastsInDim S dims) (i : S.Idx)
    (h : cmpf .olt (Host.absf a) (broadcastInDim S dims hb (constant S0 .f32 0x7F800000#32)) i = 1#1) :
    ∃ r : ℝ, a i = (r : EReal) := by
  have h' : Ideal.cmp .olt (max (a i) (-(a i))) (Ideal.ofBits .f32 0x7F800000#32) = 1#1 := h
  rw [ofBits_inf] at h'
  apply real_of_abs_lt_top
  unfold Ideal.cmp at h'
  by_contra hn
  simp only [hn, decide_false] at h'
  exact absurd h' (by decide)

/-- The conjunction over all indices of `|a i| < +∞` being 1 gives a real at every index. -/
theorem real_of_all {S : Shape} {axes : List (Fin S.rank)} (a : FVec Ideal S .f32) (dims : Fin S0.rank → Fin S.rank)
    (hb : S0.BroadcastsInDim S dims) (hr : S.ReducesTo axes S0) (hu : 0 < S0.numel)
    (e : Host.reduce IntOp.andi (cmpf .olt (Host.absf a) (broadcastInDim S dims hb (constant S0 .f32 0x7F800000#32)))
      (constantI S0 1 1#1) hr hu ValueIdx.ix0 = 1#1) (i : S.Idx) : ∃ r : ℝ, a i = (r : EReal) :=
  real_of_cmp a dims hb i (Host.reduce_andi_all _ _ hr hu _ e i)

/-- The join of two one-bit results at an index is 1 exactly when both are. -/
theorem andi_apply_eq_one {s : Shape} (x y : IVec s 1) (i : s.Idx) : andi x y i = 1#1 ↔ x i = 1#1 ∧ y i = 1#1 :=
  IntOp.andi_eq_one

end Idealize.ShloMosaic.AllFinite

end
-- ==== Proof.Finite.lean ====
/-
  The precondition decoded.  The precondition says that the conjunction, over the four argument arrays, of
  "every entry has absolute value below +∞" is true.  At the extended reals an entry whose absolute value is
  below +∞ is a real number, so each of the four arrays holds a real number at every index.
-/
import proofs.«117513_j37263136260428_2_alg».proof.Defs
import proofs.«117513_j37263136260428_2_alg».proof.Proof.LibAllFinite

noncomputable section

namespace Cert.KernelIdeal.FiniteIn

open Idealize.ShloMosaic Idealize.SL.Sem
open Idealize.ShloMosaic.AllFinite

/-- Under the precondition every entry of every argument array is a real number. -/
theorem reals_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have e := congrFun (h c) ValueIdx.ix0
  dsimp only [Cert.Pre_finite_inputs.fn, Cert.Pre_finite_inputs.fn_part1] at e
  rw [andi_apply_eq_one, andi_apply_eq_one, andi_apply_eq_one] at e
  obtain ⟨⟨⟨e0, e1⟩, e2⟩, e3⟩ := e
  exact ⟨real_of_all _ _ _ _ _ e0, real_of_all _ _ _ _ _ e1, real_of_all _ _ _ _ _ e2,
    real_of_all _ _ _ _ _ e3⟩

end Cert.KernelIdeal.FiniteIn

end
-- ==== Proof.lean ====
/-
  A radial-basis feature map computed two ways agrees on the extended reals.

  From context points `X b n` with features `Y b n`, image points `P g` and a length scale
  `l = exp (min 5 (max (-5) ll))`, with `D = (2·l)·l`, both programs produce, for batch `b` and image point `g`, the
  density `Σ_n w` and the two feature channels `(Σ_n w · Y b n c) / Σ_n w`, where `w = exp (-(|P g - X b n|²) / D)`.
  The reference computes the squared distance directly.  The kernel expands it: with `s = 1 / D` the exponent is the
  four-term contraction `(2s·P g 0)·X b n 0 + (2s·P g 1)·X b n 1 + (-s·|P g|²)·1 + 1·(-s·|X b n|²)`, formed by one matrix
  product of two augmented operand arrays its host lines build.  On real inputs the two exponents are the same real
  number (the square of a difference expanded, `l` positive so `D ≠ 0`); on the extended reals this needs every input
  finite, which is the precondition.  The density is the sum of the weights on both sides (a product with the word 1),
  the feature sums are the same sums, and the division is one function of equal arguments.

  The frames: each kernel program runs its host lines, its one region over an 8 × 8 grid and the reshape after it,
  and no line or window writes an argument; the reference is a straight line of host operations.  The idealized
  kernel is the printed kernel read at the extended reals with no rewrite, so nothing is to be preserved.
-/
import proofs.«117513_j37263136260428_2_alg».proof.Defs
import proofs.«117513_j37263136260428_2_alg».proof.Proof.Gen.Kernel
import proofs.«117513_j37263136260428_2_alg».proof.Proof.Gen.Kernel.Skeleton
import proofs.«117513_j37263136260428_2_alg».proof.Proof.Gen.Kernel.Launch
import proofs.«117513_j37263136260428_2_alg».proof.Proof.Gen.Kernel.Points
import proofs.«117513_j37263136260428_2_alg».proof.Proof.Gen.KernelIdeal
import proofs.«117513_j37263136260428_2_alg».proof.Proof.Gen.KernelIdeal.Skeleton
import proofs.«117513_j37263136260428_2_alg».proof.Proof.Gen.KernelIdeal.Launch
import proofs.«117513_j37263136260428_2_alg».proof.Proof.Gen.KernelIdeal.Points
import proofs.«117513_j37263136260428_2_alg».proof.Proof.Gen.ReferenceIdeal
import proofs.«117513_j37263136260428_2_alg».proof.Proof.Gen.ReferenceIdeal.Run
import proofs.«117513_j37263136260428_2_alg».proof.Proof.Gen.ReferenceIdeal.Read
import proofs.«117513_j37263136260428_2_alg».proof.Proof.Gen.Pre_finite_inputs
import proofs.«117513_j37263136260428_2_alg».proof.Proof.KFrame
import proofs.«117513_j37263136260428_2_alg».proof.Proof.KIWhole
import proofs.«117513_j37263136260428_2_alg».proof.Proof.RefRead
import proofs.«117513_j37263136260428_2_alg».proof.Proof.Algebra
import proofs.«117513_j37263136260428_2_alg».proof.Proof.Finite
import Idealize.ShloMosaic.Adequacy
import Idealize.ShloMosaic.Init

noncomputable section

namespace Cert.Proof

open Idealize.ShloMosaic Idealize.ShloMosaic.ValueIdx Idealize.SL.Sem

/-- The printed kernel runs and leaves its arguments unchanged. -/
theorem frame_kernel : Cert.frame_Kernel := fun m ρ _ => Cert.Kernel.Hand.frame m ρ

/-- So does its reading at the extended reals. -/
theorem frame_kernelIdeal : Cert.frame_KernelIdeal := fun m ρ _ => Cert.KernelIdeal.Hand.frame m ρ

/-- The reference is a straight line of host operations: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On finite inputs the kernel's image (the augmented arrangement) and the reference's (the direct one) are equal,
    element by element. -/
theorem algebraic : Cert.algebraic_KernelIdeal_ReferenceIdeal := by
  intro m ρ m' ρ' hpre hagree
  refine ⟨fun c => Cert.KernelIdeal.Whole.imageOut m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2.1, (hagree c).2.2.1, (hagree c).2.2.2]
  obtain ⟨r0, r1, r2, r3⟩ := Cert.KernelIdeal.FiniteIn.reals_of_pre m hpre c
  funext i
  obtain ⟨b, ch, iy, ix, rfl⟩ : ∃ (b : Fin 8) (ch : Fin 3) (iy ix : Fin 128), i = ix4 b ch iy ix :=
    ⟨i 0, i 1, i 2, i 3, eq_ix4 (n0 := 8) (n1 := 3) (n2 := 128) (n3 := 128) i⟩
  refine (Cert.ReferenceIdeal.RefValue.ref_read _ _ _ _ b ch iy ix).trans ?_
  exact (Cert.RbfSpec.aug_eq_direct _ _ _ _ (fun _ _ _ => r0 _) (fun _ _ _ => r1 _) (fun _ _ => r2 _) (r3 _)
    b (Cert.RbfSpec.pointOf iy ix) ch).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
